-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v42)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v42) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v64) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S64x128 : Shape := ⟨2, ![64, 128]⟩
abbrev S64 : Shape := ⟨1, ![64]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S64x128 : S_.BroadcastsInDim S64x128 (![] : Fin 0 → Fin S64x128.rank)
  reducesTo_S64x128_S_d0_1 : S64x128.ReducesTo [0, 1] S_
  bcast_S_S64 : S_.BroadcastsInDim S64 (![] : Fin 0 → Fin S64.rank)
  reducesTo_S64_S_d0 : S64.ReducesTo [0] S_

variable [Facts]

def fn_part2 {F : FTy → Type} [FloatOps F] (main_arg8 : FVec F S64x128 .f32) (main_arg9 : FVec F S64 .f32) (main_v33 : IVec S_ 1) : IVec S_ 1 :=
  let main_v34 : FVec F S64x128 .f32 := Host.absf main_arg8
  let main_cst_12 : FVec F S_ .f32 := constant S_ .f32 0x7F800000#32
  let main_v35 : FVec F S64x128 .f32 := broadcastInDim S64x128 ![] bcast_S_S64x128 main_cst_12
  let main_v36 : IVec S64x128 1 := cmpf .olt main_v34 main_v35
  let main_c_13 : IVec S_ 1 := constantI S_ 1 1#1
  let main_v37 : IVec S_ 1 := (fun x v => Host.reduce IntOp.andi x v reducesTo_S64x128_S_d0_1 h_S_) main_v36 main_c_13
  let main_v38 : IVec S_ 1 := andi main_v33 main_v37
  let main_v39 : FVec F S64 .f32 := Host.absf main_arg9
  let main_cst_14 : FVec F S_ .f32 := constant S_ .f32 0x7F800000#32
  let main_v40 : FVec F S64 .f32 := broadcastInDim S64 ![] bcast_S_S64 main_cst_14
  let main_v41 : IVec S64 1 := cmpf .olt main_v39 main_v40
  let main_c_15 : IVec S_ 1 := constantI S_ 1 1#1
  let main_v42 : IVec S_ 1 := (fun x v => Host.reduce IntOp.andi x v reducesTo_S64_S_d0 h_S_) main_v41 main_c_15
  let main_v43 : IVec S_ 1 := andi main_v38 main_v42
  main_v43

def fn_part1 {F : FTy → Type} [FloatOps F] (main_arg5 : FVec F S128x128 .f32) (main_arg6 : FVec F S128 .f32) (main_arg7 : FVec F S128x128 .f32) (main_arg8 : FVec F S64x128 .f32) (main_arg9 : FVec F S64 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128x128 .f32 := Host.absf main_arg5
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg6
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x128 .f32 := Host.absf main_arg7
  let main_cst_10 : FVec F S_ .f32 := constant S_ .f32 0x7F800000#32
  let main_v30 : FVec F S128x128 .f32 := broadcastInDim S128x128 ![] bcast_S_S128x128 main_cst_10
  let main_v31 : IVec S128x128 1 := cmpf .olt main_v29 main_v30
  let main_c_11 : IVec S_ 1 := constantI S_ 1 1#1
  let main_v32 : IVec S_ 1 := (fun x v => Host.reduce IntOp.andi x v reducesTo_S128x128_S_d0_1 h_S_) main_v31 main_c_11
  let main_v33 : IVec S_ 1 := andi main_v28 main_v32
  fn_part2 (F := F) main_arg8 main_arg9 main_v33

def fn {F : FTy → Type} [FloatOps F] (main_arg0 : FVec F S50000x128 .f32) (main_arg1 : IVec S2x800000 32) (main_arg2 : FVec F S128x128 .f32) (main_arg3 : FVec F S128 .f32) (main_arg4 : FVec F S128x128 .f32) (main_arg5 : FVec F S128x128 .f32) (main_arg6 : FVec F S128 .f32) (main_arg7 : FVec F S128x128 .f32) (main_arg8 : FVec F S64x128 .f32) (main_arg9 : FVec F S64 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg4
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg5 main_arg6 main_arg7 main_arg8 main_arg9 main_v13 main_v16
-- ==== Kernel.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S64x128 : Shape := ⟨2, ![64, 128]⟩
abbrev S64 : Shape := ⟨1, ![64]⟩
abbrev S1x800000 : Shape := ⟨2, ![1, 800000]⟩
abbrev S800000 : Shape := ⟨1, ![800000]⟩
abbrev S_ : Shape := ⟨0, ![]⟩
abbrev S50000 : Shape := ⟨1, ![50000]⟩
abbrev S800000x1 : Shape := ⟨2, ![800000, 1]⟩
abbrev S50000x1 : Shape := ⟨2, ![50000, 1]⟩
abbrev S1x128 : Shape := ⟨2, ![1, 128]⟩
abbrev S1x64 : Shape := ⟨2, ![1, 64]⟩
abbrev S800000x128 : Shape := ⟨2, ![800000, 128]⟩
abbrev S2000x128 : Shape := ⟨2, ![2000, 128]⟩
abbrev S50000x64 : Shape := ⟨2, ![50000, 64]⟩
abbrev S2000x64 : Shape := ⟨2, ![2000, 64]⟩
abbrev S128x64 : Shape := ⟨2, ![128, 64]⟩

abbrev nBuf : Space → Nat
  | .hbm => 63
  | .vmem => 24
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128x128, .f32⟩
  | .hbm, ⟨6, _⟩ => ⟨S128, .f32⟩
  | .hbm, ⟨7, _⟩ => ⟨S128x128, .f32⟩
  | .hbm, ⟨8, _⟩ => ⟨S64x128, .f32⟩
  | .hbm, ⟨9, _⟩ => ⟨S64, .f32⟩
  | .hbm, ⟨10, _⟩ => ⟨S1x800000, .i32⟩
  | .hbm, ⟨11, _⟩ => ⟨S800000, .i32⟩
  | .hbm, ⟨12, _⟩ => ⟨S1x800000, .i32⟩
  | .hbm, ⟨13, _⟩ => ⟨S800000, .i32⟩
  | .hbm, ⟨14, _⟩ => ⟨S_, .f32⟩
  | .hbm, ⟨15, _⟩ => ⟨S800000, .f32⟩
  | .hbm, ⟨16, _⟩ => ⟨S_, .f32⟩
  | .hbm, ⟨17, _⟩ => ⟨S50000, .f32⟩
  | .hbm, ⟨18, _⟩ => ⟨S800000x1, .i32⟩
  | .hbm, ⟨19, _⟩ => ⟨S50000, .f32⟩
  | .hbm, ⟨20, _⟩ => ⟨S_, .f32⟩
  | .hbm, ⟨21, _⟩ => ⟨S50000, .f32⟩
  | .hbm, ⟨22, _⟩ => ⟨S50000, .f32⟩
  | .hbm, ⟨23, _⟩ => ⟨S_, .f32⟩
  | .hbm, ⟨24, _⟩ => ⟨S50000, .f32⟩
  | .hbm, ⟨25, _⟩ => ⟨S50000, .f32⟩
  | .hbm, ⟨26, _⟩ => ⟨S50000x1, .f32⟩
  | .hbm, ⟨27, _⟩ => ⟨S1x128, .f32⟩
  | .hbm, ⟨28, _⟩ => ⟨S1x128, .f32⟩
  | .hbm, ⟨29, _⟩ => ⟨S1x64, .f32⟩
  | .hbm, ⟨30, _⟩ => ⟨S_, .i32⟩
  | .hbm, ⟨31, _⟩ => ⟨S800000, .i32⟩
  | .hbm, ⟨32, _⟩ => ⟨S800000, .i1⟩
  | .hbm, ⟨33, _⟩ => ⟨S_, .i32⟩
  | .hbm, ⟨34, _⟩ => ⟨S800000, .i32⟩
  | .hbm, ⟨35, _⟩ => ⟨S800000, .i32⟩
  | .hbm, ⟨36, _⟩ => ⟨S800000, .i32⟩
  | .hbm, ⟨37, _⟩ => ⟨S800000x1, .i32⟩
  | .hbm, ⟨38, _⟩ => ⟨S800000x128, .f32⟩
  | .hbm, ⟨39, _⟩ => ⟨S_, .f32⟩
  | .hbm, ⟨40, _⟩ => ⟨S50000x128, .f32⟩
  | .hbm, ⟨41, _⟩ => ⟨S800000x1, .i32⟩
  | .hbm, ⟨42, _⟩ => ⟨S50000x128, .f32⟩
  | .hbm, ⟨43, _⟩ => ⟨S50000x128, .f32⟩
  | .hbm, ⟨44, _⟩ => ⟨S50000x128, .f32⟩
  | .hbm, ⟨45, _⟩ => ⟨S50000x128, .f32⟩
  | .hbm, ⟨46, _⟩ => ⟨S_, .i32⟩
  | .hbm, ⟨47, _⟩ => ⟨S800000, .i32⟩
  | .hbm, ⟨48, _⟩ => ⟨S800000, .i1⟩
  | .hbm, ⟨49, _⟩ => ⟨S_, .i32⟩
  | .hbm, ⟨50, _⟩ => ⟨S800000, .i32⟩
  | .hbm, ⟨51, _⟩ => ⟨S800000, .i32⟩
  | .hbm, ⟨52, _⟩ => ⟨S800000, .i32⟩
  | .hbm, ⟨53, _⟩ => ⟨S800000x1, .i32⟩
  | .hbm, ⟨54, _⟩ => ⟨S800000x128, .f32⟩
  | .hbm, ⟨55, _⟩ => ⟨S_, .f32⟩
  | .hbm, ⟨56, _⟩ => ⟨S50000x128, .f32⟩
  | .hbm, ⟨57, _⟩ => ⟨S800000x1, .i32⟩
  | .hbm, ⟨58, _⟩ => ⟨S50000x128, .f32⟩
  | .hbm, ⟨59, _⟩ => ⟨S50000x128, .f32⟩
  | .hbm, ⟨60, _⟩ => ⟨S50000x128, .f32⟩
  | .hbm, ⟨61, _⟩ => ⟨S50000x128, .f32⟩
  | .hbm, ⟨62, _⟩ => ⟨S50000x64, .f32⟩
  | .local _ .vmem, ⟨0, _⟩ => ⟨S2000x128, .f32⟩
  | .local _ .vmem, ⟨1, _⟩ => ⟨S2000x128, .f32⟩
  | .local _ .vmem, ⟨2, _⟩ => ⟨S2000x128, .f32⟩
  | .local _ .vmem, ⟨3, _⟩ => ⟨S2000x128, .f32⟩
  | .local _ .vmem, ⟨4, _⟩ => ⟨S128x128, .f32⟩
  | .local _ .vmem, ⟨5, _⟩ => ⟨S1x128, .f32⟩
  | .local _ .vmem, ⟨6, _⟩ => ⟨S128x128, .f32⟩
  | .local _ .vmem, ⟨7, _⟩ => ⟨S2000x128, .f32⟩
  | .local _ .vmem, ⟨8, _⟩ => ⟨S2000x128, .f32⟩
  | .local _ .vmem, ⟨9, _⟩ => ⟨S2000x128, .f32⟩
  | .local _ .vmem, ⟨10, _⟩ => ⟨S2000x128, .f32⟩
  | .local _ .vmem, ⟨11, _⟩ => ⟨S2000x128, .f32⟩
  | .local _ .vmem, ⟨12, _⟩ => ⟨S2000x128, .f32⟩
  | .local _ .vmem, ⟨13, _⟩ => ⟨S128x128, .f32⟩
  | .local _ .vmem, ⟨14, _⟩ => ⟨S1x128, .f32⟩
  | .local _ .vmem, ⟨15, _⟩ => ⟨S128x128, .f32⟩
  | .local _ .vmem, ⟨16, _⟩ => ⟨S2000x128, .f32⟩
  | .local _ .vmem, ⟨17, _⟩ => ⟨S2000x128, .f32⟩
  | .local _ .vmem, ⟨18, _⟩ => ⟨S2000x128, .f32⟩
  | .local _ .vmem, ⟨19, _⟩ => ⟨S2000x128, .f32⟩
  | .local _ .vmem, ⟨20, _⟩ => ⟨S64x128, .f32⟩
  | .local _ .vmem, ⟨21, _⟩ => ⟨S1x64, .f32⟩
  | .local _ .vmem, ⟨22, _⟩ => ⟨S2000x64, .f32⟩
  | .local _ .vmem, ⟨23, _⟩ => ⟨S2000x64, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_cst : Ref sig .tc := ⟨.hbm, 14, rfl⟩
abbrev main_v4 : Ref sig .tc := ⟨.hbm, 15, rfl⟩
abbrev main_cst_0 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_cst_1 : Ref sig .tc := ⟨.hbm, 20, rfl⟩
abbrev main_v8 : Ref sig .tc := ⟨.hbm, 21, rfl⟩
abbrev main_v9 : Ref sig .tc := ⟨.hbm, 22, rfl⟩
abbrev main_cst_2 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_c : Ref sig .tc := ⟨.hbm, 30, rfl⟩
abbrev main_v16 : Ref sig .tc := ⟨.hbm, 31, rfl⟩
abbrev main_v17 : Ref sig .tc := ⟨.hbm, 32, rfl⟩
abbrev main_c_3 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_cst_4 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_c_5 : Ref sig .tc := ⟨.hbm, 46, rfl⟩
abbrev main_v29 : Ref sig .tc := ⟨.hbm, 47, rfl⟩
abbrev main_v30 : Ref sig .tc := ⟨.hbm, 48, rfl⟩
abbrev main_c_6 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_cst_7 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg5_1 : Ref sig .tc := ⟨.vmem, 17, rfl⟩
abbrev cc2_stg0_0 : Ref sig .tc := ⟨.vmem, 18, rfl⟩
abbrev cc2_stg0_1 : Ref sig .tc := ⟨.vmem, 19, rfl⟩
abbrev cc2_stg1_0 : Ref sig .tc := ⟨.vmem, 20, rfl⟩
abbrev cc2_stg2_0 : Ref sig .tc := ⟨.vmem, 21, rfl⟩
abbrev cc2_stg3_0 : Ref sig .tc := ⟨.vmem, 22, rfl⟩
abbrev cc2_stg3_1 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem5_1 : DmaSem sig := 17
abbrev cc2_sem0_0 : DmaSem sig := 18
abbrev cc2_sem0_1 : DmaSem sig := 19
abbrev cc2_sem1_0 : DmaSem sig := 20
abbrev cc2_sem2_0 : DmaSem sig := 21
abbrev cc2_sem3_0 : DmaSem sig := 22
abbrev cc2_sem3_1 : DmaSem sig := 23

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S2000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S2000x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S64x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S2000x64 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  bcast_S50000_S50000x1_0 : S50000.BroadcastsInDim S50000x1 (![0] : Fin 1 → Fin S50000x1.rank)
  shapeCasts_S128_S1x128 : S128.ShapeCasts S1x128
  shapeCasts_S64_S1x64 : S64.ShapeCasts S1x64
  bcast_S_S50000x128 : S_.BroadcastsInDim S50000x128 (![] : Fin 0 → Fin S50000x128.rank)
  bcast_S50000x1_S50000x128_0_1 : S50000x1.BroadcastsInDim S50000x128 (![0, 1] : Fin 2 → Fin S50000x128.rank)
  inb_S2000x128_S2000x128_0_0 : ∀ a, (![0, 0] : Fin 2 → Nat) a + S2000x128.size a ≤ S2000x128.size a
  h_S2000x128 : 0 < S2000x128.numel
  shapeCasts_S2000x128_S2000x128 : S2000x128.ShapeCasts S2000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  transposes_S128x128_p1_0_S128x128 : S128x128.Transposes [1, 0] S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2000x128 : S1x128.Broadcasts S2000x128
  inb_S64x128_S64x128_0_0 : ∀ a, (![0, 0] : Fin 2 → Nat) a + S64x128.size a ≤ S64x128.size a
  h_S64x128 : 0 < S64x128.numel
  transposes_S64x128_p1_0_S128x64 : S64x128.Transposes [1, 0] S128x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S2000x64 : S1x64.Broadcasts S2000x64
  inb_S2000x64_S2000x64_0_0 : ∀ a, (![0, 0] : Fin 2 → Nat) a + S2000x64.size a ≤ S2000x64.size a
  h_S2000x64 : 0 < S2000x64.numel
  scatter_S50000_S800000x1_S800000_n_0_0_1_wf : ScatterDims.WF S50000 S800000x1 S800000 [] [0] [0] 1
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S2000x128_S128x128_S2000x128_1_0_0_1_n_n_wf : DotDims.WF S2000x128 S128x128 S2000x128 [1] [0] [0] [1] [] []
  dot_S2000x128_S128x64_S2000x64_1_0_0_1_n_n_wf : DotDims.WF S2000x128 S128x64 S2000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S50000x128.size a
  hwx0_0 : ∀ i : grid0.Coords, EltTy.bits .f32 = 32 ∨ (Rect.block (s := S50000x128) S2000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x128.size a ≤ S50000x128.size a
  hwx0_1 : ∀ i : grid0.Coords, EltTy.bits .f32 = 32 ∨ (Rect.block (s := S50000x128) S2000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .f32 = 32 ∨ (Rect.block (s := S128x128) S128x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S2000x128.size a ≤ S50000x128.size a
  hwx0_5 : ∀ i : grid0.Coords, EltTy.bits .f32 = 32 ∨ (Rect.block (s := S50000x128) S2000x128.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S50000x128.size a
  hwx1_0 : ∀ i : grid1.Coords, EltTy.bits .f32 = 32 ∨ (Rect.block (s := S50000x128) S2000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x128.size a ≤ S50000x128.size a
  hwx1_1 : ∀ i : grid1.Coords, EltTy.bits .f32 = 32 ∨ (Rect.block (s := S50000x128) S2000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128x128.size a ≤ S128x128.size a
  hwx1_4 : ∀ i : grid1.Coords, EltTy.bits .f32 = 32 ∨ (Rect.block (s := S128x128) S128x128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S2000x128.size a ≤ S50000x128.size a
  hwx1_5 : ∀ i : grid1.Coords, EltTy.bits .f32 = 32 ∨ (Rect.block (s := S50000x128) S2000x128.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x128.size a ≤ S50000x128.size a
  hwx2_0 : ∀ i : grid2.Coords, EltTy.bits .f32 = 32 ∨ (Rect.block (s := S50000x128) S2000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S64x128.size a ≤ S64x128.size a
  hwx2_1 : ∀ i : grid2.Coords, EltTy.bits .f32 = 32 ∨ (Rect.block (s := S64x128) S64x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x64.size a ≤ S1x64.size a
  hwx2_2 : ∀ i : grid2.Coords, EltTy.bits .f32 = 32 ∨ (Rect.block (s := S1x64) S1x64.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S2000x64.size a ≤ S50000x64.size a
  hwx2_3 : ∀ i : grid2.Coords, EltTy.bits .f32 = 32 ∨ (Rect.block (s := S50000x64) S2000x64.size (cc2_transform_3 i) (hinb2_3 i)).WholeWords (EltTy.packing .f32)

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf
def dot_S2000x128_S128x64_S2000x64_1_0_0_1_n_n : DotDims S2000x128 S128x64 S2000x64 where
  lhsContracting := [1]
  rhsContracting := [0]
  lhsNonContracting := [0]
  rhsNonContracting := [1]
  lhsBatch := []
  rhsBatch := []
  wf := dot_S2000x128_S128x64_S2000x64_1_0_0_1_n_n_wf

abbrev win0_0 : Pipeline.Window sig grid0 :=
  Pipeline.Window.ofSpec (Memref.whole main_v27) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S2000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v13) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v28) S2000x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v40) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v28) S2000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg5) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v14) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg7) S128x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v41) S2000x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v41) S2000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg8) S64x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v15) S1x64.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v42) S2000x64.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S64x128 : Shape := ⟨2, ![64, 128]⟩
abbrev S64 : Shape := ⟨1, ![64]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x128 : Shape := ⟨2, ![800000, 128]⟩
abbrev S50000 : Shape := ⟨1, ![50000]⟩
abbrev S50000x1 : Shape := ⟨2, ![50000, 1]⟩
abbrev S1x128 : Shape := ⟨2, ![1, 128]⟩
abbrev S128x64 : Shape := ⟨2, ![128, 64]⟩
abbrev S50000x64 : Shape := ⟨2, ![50000, 64]⟩
abbrev S1x64 : Shape := ⟨2, ![1, 64]⟩

abbrev nBuf : Space → Nat
  | .hbm => 91
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128x128, .f32⟩
  | .hbm, ⟨6, _⟩ => ⟨S128, .f32⟩
  | .hbm, ⟨7, _⟩ => ⟨S128x128, .f32⟩
  | .hbm, ⟨8, _⟩ => ⟨S64x128, .f32⟩
  | .hbm, ⟨9, _⟩ => ⟨S64, .f32⟩
  | .hbm, ⟨10, _⟩ => ⟨S1x800000, .i32⟩
  | .hbm, ⟨11, _⟩ => ⟨S800000, .i32⟩
  | .hbm, ⟨12, _⟩ => ⟨S1x800000, .i32⟩
  | .hbm, ⟨13, _⟩ => ⟨S800000, .i32⟩
  | .hbm, ⟨14, _⟩ => ⟨S_, .i32⟩
  | .hbm, ⟨15, _⟩ => ⟨S800000, .i32⟩
  | .hbm, ⟨16, _⟩ => ⟨S800000, .i1⟩
  | .hbm, ⟨17, _⟩ => ⟨S_, .i32⟩
  | .hbm, ⟨18, _⟩ => ⟨S800000, .i32⟩
  | .hbm, ⟨19, _⟩ => ⟨S800000, .i32⟩
  | .hbm, ⟨20, _⟩ => ⟨S800000, .i32⟩
  | .hbm, ⟨21, _⟩ => ⟨S800000x1, .i32⟩
  | .hbm, ⟨22, _⟩ => ⟨S800000x128, .f32⟩
  | .hbm, ⟨23, _⟩ => ⟨S_, .f32⟩
  | .hbm, ⟨24, _⟩ => ⟨S50000x128, .f32⟩
  | .hbm, ⟨25, _⟩ => ⟨S800000x1, .i32⟩
  | .hbm, ⟨26, _⟩ => ⟨S50000x128, .f32⟩
  | .hbm, ⟨27, _⟩ => ⟨S_, .f32⟩
  | .hbm, ⟨28, _⟩ => ⟨S800000, .f32⟩
  | .hbm, ⟨29, _⟩ => ⟨S_, .f32⟩
  | .hbm, ⟨30, _⟩ => ⟨S50000, .f32⟩
  | .hbm, ⟨31, _⟩ => ⟨S800000x1, .i32⟩
  | .hbm, ⟨32, _⟩ => ⟨S50000, .f32⟩
  | .hbm, ⟨33, _⟩ => ⟨S_, .f32⟩
  | .hbm, ⟨34, _⟩ => ⟨S50000, .f32⟩
  | .hbm, ⟨35, _⟩ => ⟨S50000, .f32⟩
  | .hbm, ⟨36, _⟩ => ⟨S50000x1, .f32⟩
  | .hbm, ⟨37, _⟩ => ⟨S50000x128, .f32⟩
  | .hbm, ⟨38, _⟩ => ⟨S50000x128, .f32⟩
  | .hbm, ⟨39, _⟩ => ⟨S128x128, .f32⟩
  | .hbm, ⟨40, _⟩ => ⟨S50000x128, .f32⟩
  | .hbm, ⟨41, _⟩ => ⟨S1x128, .f32⟩
  | .hbm, ⟨42, _⟩ => ⟨S50000x128, .f32⟩
  | .hbm, ⟨43, _⟩ => ⟨S50000x128, .f32⟩
  | .hbm, ⟨44, _⟩ => ⟨S128x128, .f32⟩
  | .hbm, ⟨45, _⟩ => ⟨S50000x128, .f32⟩
  | .hbm, ⟨46, _⟩ => ⟨S50000x128, .f32⟩
  | .hbm, ⟨47, _⟩ => ⟨S_, .f32⟩
  | .hbm, ⟨48, _⟩ => ⟨S50000x128, .f32⟩
  | .hbm, ⟨49, _⟩ => ⟨S50000x128, .f32⟩
  | .hbm, ⟨50, _⟩ => ⟨S_, .i32⟩
  | .hbm, ⟨51, _⟩ => ⟨S800000, .i32⟩
  | .hbm, ⟨52, _⟩ => ⟨S800000, .i1⟩
  | .hbm, ⟨53, _⟩ => ⟨S_, .i32⟩
  | .hbm, ⟨54, _⟩ => ⟨S800000, .i32⟩
  | .hbm, ⟨55, _⟩ => ⟨S800000, .i32⟩
  | .hbm, ⟨56, _⟩ => ⟨S800000, .i32⟩
  | .hbm, ⟨57, _⟩ => ⟨S800000x1, .i32⟩
  | .hbm, ⟨58, _⟩ => ⟨S800000x128, .f32⟩
  | .hbm, ⟨59, _⟩ => ⟨S_, .f32⟩
  | .hbm, ⟨60, _⟩ => ⟨S50000x128, .f32⟩
  | .hbm, ⟨61, _⟩ => ⟨S800000x1, .i32⟩
  | .hbm, ⟨62, _⟩ => ⟨S50000x128, .f32⟩
  | .hbm, ⟨63, _⟩ => ⟨S_, .f32⟩
  | .hbm, ⟨64, _⟩ => ⟨S800000, .f32⟩
  | .hbm, ⟨65, _⟩ => ⟨S_, .f32⟩
  | .hbm, ⟨66, _⟩ => ⟨S50000, .f32⟩
  | .hbm, ⟨67, _⟩ => ⟨S800000x1, .i32⟩
  | .hbm, ⟨68, _⟩ => ⟨S50000, .f32⟩
  | .hbm, ⟨69, _⟩ => ⟨S_, .f32⟩
  | .hbm, ⟨70, _⟩ => ⟨S50000, .f32⟩
  | .hbm, ⟨71, _⟩ => ⟨S50000, .f32⟩
  | .hbm, ⟨72, _⟩ => ⟨S50000x1, .f32⟩
  | .hbm, ⟨73, _⟩ => ⟨S50000x128, .f32⟩
  | .hbm, ⟨74, _⟩ => ⟨S50000x128, .f32⟩
  | .hbm, ⟨75, _⟩ => ⟨S128x128, .f32⟩
  | .hbm, ⟨76, _⟩ => ⟨S50000x128, .f32⟩
  | .hbm, ⟨77, _⟩ => ⟨S1x128, .f32⟩
  | .hbm, ⟨78, _⟩ => ⟨S50000x128, .f32⟩
  | .hbm, ⟨79, _⟩ => ⟨S50000x128, .f32⟩
  | .hbm, ⟨80, _⟩ => ⟨S128x128, .f32⟩
  | .hbm, ⟨81, _⟩ => ⟨S50000x128, .f32⟩
  | .hbm, ⟨82, _⟩ => ⟨S50000x128, .f32⟩
  | .hbm, ⟨83, _⟩ => ⟨S_, .f32⟩
  | .hbm, ⟨84, _⟩ => ⟨S50000x128, .f32⟩
  | .hbm, ⟨85, _⟩ => ⟨S50000x128, .f32⟩
  | .hbm, ⟨86, _⟩ => ⟨S128x64, .f32⟩
  | .hbm, ⟨87, _⟩ => ⟨S50000x64, .f32⟩
  | .hbm, ⟨88, _⟩ => ⟨S1x64, .f32⟩
  | .hbm, ⟨89, _⟩ => ⟨S50000x64, .f32⟩
  | .hbm, ⟨90, _⟩ => ⟨S50000x64, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_c : Ref sig .tc := ⟨.hbm, 14, rfl⟩
abbrev main_v4 : Ref sig .tc := ⟨.hbm, 15, rfl⟩
abbrev main_v5 : Ref sig .tc := ⟨.hbm, 16, rfl⟩
abbrev main_c_0 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_cst : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_cst_1 : Ref sig .tc := ⟨.hbm, 27, rfl⟩
abbrev main_v14 : Ref sig .tc := ⟨.hbm, 28, rfl⟩
abbrev main_cst_2 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_cst_3 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_call0_cst : Ref sig .tc := ⟨.hbm, 47, rfl⟩
abbrev main_call0_v0 : Ref sig .tc := ⟨.hbm, 48, rfl⟩
abbrev main_v31 : Ref sig .tc := ⟨.hbm, 49, rfl⟩
abbrev main_c_4 : Ref sig .tc := ⟨.hbm, 50, rfl⟩
abbrev main_v32 : Ref sig .tc := ⟨.hbm, 51, rfl⟩
abbrev main_v33 : Ref sig .tc := ⟨.hbm, 52, rfl⟩
abbrev main_c_5 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_cst_6 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_cst_7 : Ref sig .tc := ⟨.hbm, 63, rfl⟩
abbrev main_v42 : Ref sig .tc := ⟨.hbm, 64, rfl⟩
abbrev main_cst_8 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_cst_9 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_call1_cst : Ref sig .tc := ⟨.hbm, 83, rfl⟩
abbrev main_call1_v0 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S_S50000x128 : S_.BroadcastsInDim S50000x128 (![] : Fin 0 → Fin S50000x128.rank)
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  transposes_S128x128_S128x128_1_0 : S128x128.Transposes [1, 0] S128x128
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  transposes_S64x128_S128x64_1_0 : S64x128.Transposes [1, 0] S128x64
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  scatter_S50000_S800000x1_S800000_n_0_0_1_wf : ScatterDims.WF S50000 S800000x1 S800000 [] [0] [0] 1
  dot_S50000x128_S128x128_S50000x128_1_0_0_1_n_n_wf : DotDims.WF S50000x128 S128x128 S50000x128 [1] [0] [0] [1] [] []
  dot_S50000x128_S128x64_S50000x64_1_0_0_1_n_n_wf : DotDims.WF S50000x128 S128x64 S50000x64 [1] [0] [0] [1] [] []

variable [Facts₀]

def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def dot_S50000x128_S128x64_S50000x64_1_0_0_1_n_n : DotDims S50000x128 S128x64 S50000x64 where
  lhsContracting := [1]
  rhsContracting := [0]
  lhsNonContracting := [0]
  rhsNonContracting := [1]
  lhsBatch := []
  rhsBatch := []
  wf := dot_S50000x128_S128x64_S50000x64_1_0_0_1_n_n_wf

class Facts : Prop extends Facts₀ where

variable [Facts]
-- ==== Proof.KernelRun.lean ====
/-
  The idealized kernel's run, with its result named.

  The program is three launches among stretches of host operations. Its buffers' contents at each boundary
  are a fold from the launch memory: a stretch of host operations leaves the operations' results, a launch
  leaves each of its arrays at what its write-backs have folded into it. The last boundary's contents are
  what every final state holds at every buffer outside the launches' scratch, so the result buffer ends at
  the last fold's value there, and the argument buffers end as launched.
-/
import proofs.«180235_j27212912788332_1_alg».proof.Proof.Gen.KernelIdeal.Frame

set_option maxRecDepth 16384

noncomputable section

namespace Cert.KernelIdeal.RunValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution terminates without a fault; the result buffer ends at the last boundary's
    contents and the arguments as launched. -/
theorem run : θ_run defs (onTc (τ := τ) (main (F := F))) ⟨m, fun _ => 0, ρ⟩ (fun r => ∀ c : Dev nD,
      r.2.mem ((c.tc : Thread nD τ).loc main_v42) = W5 m ρ c (Proc.devRef .tc main_v42)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h c =>
      ⟨h c _ (mem_uc main_v42 (by decide)),
       (h c _ (mem_uc main_arg0 (by decide))).trans (W5_main_arg0 m ρ c),
       (h c _ (mem_uc main_arg1 (by decide))).trans (W5_main_arg1 m ρ c),
       (h c _ (mem_uc main_arg2 (by decide))).trans (W5_main_arg2 m ρ c),
       (h c _ (mem_uc main_arg3 (by decide))).trans (W5_main_arg3 m ρ c),
       (h c _ (mem_uc main_arg4 (by decide))).trans (W5_main_arg4 m ρ c),
       (h c _ (mem_uc main_arg5 (by decide))).trans (W5_main_arg5 m ρ c),
       (h c _ (mem_uc main_arg6 (by decide))).trans (W5_main_arg6 m ρ c),
       (h c _ (mem_uc main_arg7 (by decide))).trans (W5_main_arg7 m ρ c),
       (h c _ (mem_uc main_arg8 (by decide))).trans (W5_main_arg8 m ρ c),
       (h c _ (mem_uc main_arg9 (by decide))).trans (W5_main_arg9 m ρ c)⟩)

end Cert.KernelIdeal.RunValue

end
-- ==== Proof.SageMath.lean ====
/-
  The arithmetic of one mean-aggregating graph layer, over the extended reals.

  A node's aggregate is the sum of its in-neighbours' feature rows divided by the node's in-degree, the
  degree clamped below at one so that an isolated node divides by one. Dividing a sum `s` by the clamped
  degree `c` and multiplying `s` by the reciprocal `1 / c` are the same extended real: the quotient of the
  extended reals is the product with the inverse whenever the divisor is not zero, and `c ≥ 1` is never
  zero. No finiteness of `s` or of the degree is used: at `c = +∞` both sides are `s · 0`.

  A layer's entry (i, j) is `max (Σₖ agg(i,k)·Wl(j,k) + Σₖ x(i,k)·Wr(j,k) + b(j), 0)`; the three summands may be
  added in either grouping, because addition of extended reals is commutative and associative.
-/
import Idealize.ShloMosaic.Lib.ValueIdx
import Idealize.ShloMosaic.PureOps.Ideal.Laws

noncomputable section

open scoped BigOperators

namespace Cert.Sage

open Idealize.ShloMosaic Idealize.ShloMosaic.ValueIdx

/-- The single-precision pattern of `1.0` denotes the real number one. -/
theorem one_f32 : Ideal.ofBits .f32 0x3F800000#32 = 1 := by
  simp [Ideal.ofBits, Ideal.ieee, -EReal.coe_mul]; norm_num

/-- A degree clamped below at one is not zero. -/
theorem clamped_ne_zero (n : EReal) : max n (1 : EReal) ≠ 0 := by
  intro h
  have h1 : (1 : EReal) ≤ max n 1 := le_max_right _ _
  rw [h] at h1
  exact absurd h1 (not_le.mpr zero_lt_one)

/-- Dividing by the clamped degree is multiplying by its reciprocal. -/
theorem div_clamped (s n : EReal) :
    Ideal.div s (max n (Ideal.ofBits .f32 0x3F800000#32))
      = s * Ideal.div (Ideal.ofBits .f32 0x3F800000#32) (max n (Ideal.ofBits .f32 0x3F800000#32)) := by
  rw [one_f32]
  unfold Ideal.div
  rw [if_neg (clamped_ne_zero n), if_neg (clamped_ne_zero n), one_mul]

/-- Entry (i, j) of a layer: the aggregated rows through `Wl`, the node's own row through `Wr`, the bias, and
    the clamp at zero. The weights are stored output-major: row `j` of a weight is the `j`-th output's
    coefficients. -/
def layerEntry {N K H : Nat} (agg x : (⟨2, ![N, K]⟩ : Shape).Idx → EReal) (Wl Wr : (⟨2, ![H, K]⟩ : Shape).Idx → EReal)
    (b : Fin H → EReal) (i : Fin N) (j : Fin H) : EReal :=
  max ((∑ k : Fin K, agg (ix2 i k) * Wl (ix2 j k)) + (∑ k : Fin K, x (ix2 i k) * Wr (ix2 j k)) + b j)
    (Ideal.ofBits .f32 0x00000000#32)

/-- The same entry with the bias added before the node's own term. -/
theorem layerEntry_bias_first {N K H : Nat} (agg x : (⟨2, ![N, K]⟩ : Shape).Idx → EReal)
    (Wl Wr : (⟨2, ![H, K]⟩ : Shape).Idx → EReal) (b : Fin H → EReal) (i : Fin N) (j : Fin H) :
    max ((∑ k : Fin K, agg (ix2 i k) * Wl (ix2 j k)) + b j + (∑ k : Fin K, x (ix2 i k) * Wr (ix2 j k)))
        (Ideal.ofBits .f32 0x00000000#32)
      = layerEntry agg x Wl Wr b i j := by
  unfold layerEntry
  rw [add_right_comm]

/-- Entry (i, j) of the linear head: the row through `W`, plus the bias. -/
def headEntry {N K H : Nat} (x : (⟨2, ![N, K]⟩ : Shape).Idx → EReal) (W : (⟨2, ![H, K]⟩ : Shape).Idx → EReal)
    (b : Fin H → EReal) (i : Fin N) (j : Fin H) : EReal :=
  (∑ k : Fin K, x (ix2 i k) * W (ix2 j k)) + b j

end Cert.Sage

end
-- ==== Proof.LibPlainDot.lean ====
/-
  A plain matrix product read at an index, over the extended reals.

  For the dimension numbers of an M×K by K×N product (contract the left operand's second axis with the
  right operand's first; no batch axes) the entry (i, j) of the product is the sum over k of
  lhs (i, k) · rhs (k, j): stated once for a `tpu.matmul` accumulating into the zero splat and once for
  the host's `dot_general`, for any extents M, K, N. The contraction index of such a product has one
  axis of extent K, and the sum over it is re-indexed by that coordinate.
-/
import Idealize.ShloMosaic.Lib.ValueIdx
import Idealize.ShloMosaic.PureOps.Ideal.Laws

noncomputable section

open scoped BigOperators

namespace Idealize.ShloMosaic.PlainDot

open Idealize.ShloMosaic Idealize.ShloMosaic.ValueIdx

variable {M K N : Nat}

/-- The left operand's row coordinate is the result's row coordinate. -/
theorem lhs_row (j : (⟨2, ![M, N]⟩ : Shape).Idx) (q : (DotDims.plain M K N).contr.Idx) :
    ((DotDims.plain M K N).lhsIdx j q 0).val = (j 0).val := by
  unfold DotDims.lhsIdx
  rw [dif_neg (show ¬(0 : Fin (⟨2, ![M, K]⟩ : Shape).rank) ∈ (DotDims.plain M K N).lhsBatch from List.not_mem_nil),
    dif_pos (show (0 : Fin (⟨2, ![M, K]⟩ : Shape).rank) ∈ (DotDims.plain M K N).lhsNonContracting from List.mem_singleton.mpr rfl)]
  rfl

/-- The left operand's column coordinate is the contraction coordinate. -/
theorem lhs_col (j : (⟨2, ![M, N]⟩ : Shape).Idx) (q : (DotDims.plain M K N).contr.Idx) :
    ((DotDims.plain M K N).lhsIdx j q 1).val = (q ⟨0, show 0 < (DotDims.plain M K N).contr.rank from Nat.one_pos⟩).val :=
  (DotDims.plain M K N).lhsIdx_val_of_single rfl j q

/-- The right operand's row coordinate is the contraction coordinate. -/
theorem rhs_row (j : (⟨2, ![M, N]⟩ : Shape).Idx) (q : (DotDims.plain M K N).contr.Idx) :
    ((DotDims.plain M K N).rhsIdx j q 0).val = (q ⟨0, show 0 < (DotDims.plain M K N).contr.rank from Nat.one_pos⟩).val :=
  (DotDims.plain M K N).rhsIdx_val_of_single rfl j q

/-- The right operand's column coordinate is the result's column coordinate. -/
theorem rhs_col (j : (⟨2, ![M, N]⟩ : Shape).Idx) (q : (DotDims.plain M K N).contr.Idx) :
    ((DotDims.plain M K N).rhsIdx j q 1).val = (j 1).val := by
  unfold DotDims.rhsIdx
  rw [dif_neg (show ¬(1 : Fin (⟨2, ![K, N]⟩ : Shape).rank) ∈ (DotDims.plain M K N).rhsBatch from List.not_mem_nil),
    dif_pos (show (1 : Fin (⟨2, ![K, N]⟩ : Shape).rank) ∈ (DotDims.plain M K N).rhsNonContracting from List.mem_singleton.mpr rfl)]
  rfl

/-- The sum over the contraction index of a plain product is the sum over k of lhs (i, k) · rhs (k, j). -/
theorem sum_contr (lhs : (⟨2, ![M, K]⟩ : Shape).Idx → EReal) (rhs : (⟨2, ![K, N]⟩ : Shape).Idx → EReal)
    (i : Fin M) (j : Fin N) :
    (∑ q : (DotDims.plain M K N).contr.Idx,
        lhs ((DotDims.plain M K N).lhsIdx (ix2 i j) q) * rhs ((DotDims.plain M K N).rhsIdx (ix2 i j) q))
      = ∑ k : Fin K, lhs (ix2 i k) * rhs (ix2 k j) := by
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 i j) ((contrEquiv1 (DotDims.plain M K N) K rfl rfl).symm k) = ix2 i k :=
    funext fun a => Fin.ext (by
      match a with
      | ⟨0, _⟩ => exact lhs_row _ _
      | ⟨1, _⟩ => exact (lhs_col _ _).trans hk)
  have er : (DotDims.plain M K N).rhsIdx (ix2 i j) ((contrEquiv1 (DotDims.plain M K N) K rfl rfl).symm k) = ix2 k j :=
    funext fun a => Fin.ext (by
      match a with
      | ⟨0, _⟩ => exact (rhs_row _ _).trans hk
      | ⟨1, _⟩ => exact rhs_col _ _)
  rw [el, er]

/-- A `tpu.matmul` of plain dimension numbers into the zero splat, at (i, j): the sum over k of the products. -/
theorem matmul_zero_apply {φ₁ φ₂ : FTy} (prec : Option ContractPrecision)
    (lhs : FVec Ideal ⟨2, ![M, K]⟩ φ₁) (rhs : FVec Ideal ⟨2, ![K, N]⟩ φ₂) (i : Fin M) (j : Fin N) :
    FloatOps.matmul (DotDims.plain M K N) prec lhs rhs (constant ⟨2, ![M, N]⟩ .f32 0x00000000#32) (ix2 i j)
      = ∑ k : Fin K, lhs (ix2 i k) * rhs (ix2 k j) :=
  (Ideal.matmul_constant_zero_apply (DotDims.plain M K N) prec lhs rhs (ix2 i j)).trans (sum_contr lhs rhs i j)

/-- The host's `dot_general` of plain dimension numbers, at (i, j): the same sum. -/
theorem dotGeneral_apply {φ₁ φ₂ : FTy} (prec : Option ContractPrecision) (sched : HostSchedule)
    (lhs : FVec Ideal ⟨2, ![M, K]⟩ φ₁) (rhs : FVec Ideal ⟨2, ![K, N]⟩ φ₂) (i : Fin M) (j : Fin N) :
    FloatOps.dotGeneral (DotDims.plain M K N) prec sched lhs rhs (ix2 i j)
      = ∑ k : Fin K, lhs (ix2 i k) * rhs (ix2 k j) :=
  (Ideal.dotGeneral_apply (DotDims.plain M K N) prec sched lhs rhs (ix2 i j)).trans (sum_contr lhs rhs i j)

end Idealize.ShloMosaic.PlainDot

end
-- ==== Proof.Layer0Value.lean ====
/-
  What the first layer's launch leaves in its output array.

  The launch walks 25 blocks of 2000 rows. At block `t` the body reads rows `2000·t … 2000·t + 1999` of the
  aggregate and of the node features, the two weight matrices and the bias row whole, and stores, at row `p`
  and column `q` of the block, `max (Σₖ agg(r,k)·Wl(q,k) + Σₖ x(r,k)·Wr(q,k) + b(q), 0)` for the array row
  `r = 2000·t + p`: the two products contract the operand's columns with the transposed weight's rows, a
  change of float format is the identity on the extended reals, and the bias row is broadcast down the rows.
  Every array row lies in exactly the block `r / 2000`, so the blocks' write-backs leave the whole array at
  that function of the arrays the launch found.
-/
import proofs.«180235_j27212912788332_1_alg».proof.Proof.Gen.KernelIdeal.Frame
import proofs.«180235_j27212912788332_1_alg».proof.Proof.SageMath
import proofs.«180235_j27212912788332_1_alg».proof.Proof.LibPlainDot
import Idealize.ShloMosaic.Lib.Pipeline.Value
import Idealize.ShloMosaic.Lib.ValueLayout

set_option maxRecDepth 16384

noncomputable section

open scoped BigOperators

namespace Cert.KernelIdeal.Layer0

open Cert.KernelIdeal Cert.KernelIdeal.Gen
open Idealize.ShloMosaic Idealize.ShloMosaic.TcCoe Idealize.ShloMosaic.ValueIdx Idealize.SL.Sem
open Idealize.ShloMosaic.Pipeline (Dat)

/-- The zero offsets of a whole-buffer access. -/
theorem hz : (![0, 0] : Fin 2 → Nat) = fun _ => 0 := funext fun a => by fin_cases a <;> rfl

/-- One product of the body at (p, q): the operand's row `p` against the weight's row `q`. -/
theorem dot_apply (a : FVec Ideal S2000x128 .bf16) (w : FVec Ideal S128x128 .bf16) (p : Fin 2000) (q : Fin 128) :
    matmul dot_S2000x128_S128x128_S2000x128_1_0_0_1_n_n none a
        (transpose S128x128 [1, 0] w transposes_S128x128_p1_0_S128x128) (constant S2000x128 .f32 0x00000000#32) (ix2 p q)
      = ∑ k : Fin 128, a (ix2 p k) * w (ix2 q k) := by
  refine (PlainDot.matmul_zero_apply (M := 2000) (K := 128) (N := 128) none a _ p q).trans ?_
  refine Finset.sum_congr rfl fun k _ => ?_
  rw [transpose_ix2_apply]

/-- The body's stored value at (p, q) of the block, from the blocks it loaded. -/
theorem pay_apply (x0 x1 : Vec Ideal S2000x128 .f32) (x2 x4 : Vec Ideal S128x128 .f32) (x3 : Vec Ideal S1x128 .f32)
    (p : Fin 2000) (q : Fin 128) :
    k0_pay1 (F := Ideal) x0 x1 x2 x4 x3 (ix2 p q)
      = Cert.Sage.layerEntry x0 x1 x2 x4 (fun j => x3 (ix2 (0 : Fin 1) j)) p q := by
  unfold k0_pay1 Cert.Sage.layerEntry
  dsimp only
  rw [maximumf_apply, addf_apply, addf_apply, dot_apply, dot_apply, broadcastTo_1b_ab_apply]
  simp only [shapeCast_self]
  rfl

/-- The layer as one function of the arrays the launch finds, index by index: entry (r, q) from row `r` of the
    aggregate and of the features, the weights' rows `q` and the bias row's entry `q`. -/
def G (agg x : S50000x128.Idx → EReal) (Wl : S128x128.Idx → EReal) (b : S1x128.Idx → EReal) (Wr : S128x128.Idx → EReal) :
    S50000x128.Idx → EReal :=
  fun i => Cert.Sage.layerEntry (N := 50000) (K := 128) (H := 128) agg x Wl Wr (fun j => b (ix2 (0 : Fin 1) j)) (i 0) (i 1)

/-- Where the blocks sit: the row-tiled windows' block `t` starts at row block `t`, column block 0; the weights and
    the bias row are one block at the origin. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

variable (V : (c : Dev nD) → (b : Ref sig .tc) → Buf (Elt Ideal) ((c : Thread nD τ).loc b))

/-- What point `t` writes back is block `t` of the layer's function of the arrays the launch found. -/
theorem flushed_eq (c : Dev nD) (t : Fin cfg0.N) :
    (dat0 (F := Ideal) V c).flushed 5 t
      = ((cfg0.win 5).blk t).view.read (Elt Ideal)
          (G (V c main_v27) (V c main_arg0) (V c main_arg2) (V c main_v13) (V c main_arg4)) := by
  show (cfg0.win 5).cut (grid0.coords t) ((dat0 V c).after 5 t) = _
  rw [after0_5]
  unfold out0_5
  rw [View.canon_unit_zero hz]
  simp only [View.ld_unit_zero (S := S2000x128) hz, View.ld_unit_zero (S := S128x128) hz, View.ld_unit_zero (S := S1x128) hz]
  obtain ⟨e00, e01, e10, e11, e20, e21, e30, e31, e40, e41, e50, e51⟩ := idx_facts t
  have hN : cfg0.N = 25 := N_0
  have ht : t.val < 25 := hN ▸ t.isLt
  funext j
  obtain ⟨p, q, rfl⟩ : ∃ (p : Fin 2000) (q : Fin 128), j = ix2 p q := ⟨j 0, j 1, eq_ix2 j⟩
  have hp : p.val < 2000 := p.isLt
  obtain ⟨r, hr⟩ : ∃ r : Fin 50000, r.val = t.val * 2000 + p.val := ⟨⟨t.val * 2000 + p.val, by omega⟩, rfl⟩
  show k0_pay1 (F := Ideal) (iblk0 V c 0 t) (iblk0 V c 1 t) (iblk0 V c 2 t) (iblk0 V c 4 t) (iblk0 V c 3 t) (ix2 p q)
      = G (V c main_v27) (V c main_arg0) (V c main_arg2) (V c main_v13) (V c main_arg4) (((cfg0.win 5).blk t).view.emb (ix2 p q))
  refine (pay_apply (iblk0 V c 0 t) (iblk0 V c 1 t) (iblk0 V c 2 t) (iblk0 V c 4 t) (iblk0 V c 3 t) p q).trans ?_
  have hemb : ((cfg0.win 5).blk t).view.emb (ix2 p q) = (ix2 r q : S50000x128.Idx) := by
    funext a; apply Fin.ext
    match a with
    | ⟨0, _⟩ => show win0_5.index t (0 : Fin 2) * 2000 + 1 * p.val = r.val; omega
    | ⟨1, _⟩ => show win0_5.index t (1 : Fin 2) * 128 + 1 * q.val = q.val; omega
  rw [hemb]
  have h0 : ∀ k : Fin 128, iblk0 V c 0 t (ix2 p k) = V c main_v27 (ix2 r k) := fun k => by
    show V c main_v27 (((cfg0.win 0).blk t).view.emb (ix2 p k)) = _
    refine congrArg _ (funext fun a => Fin.ext ?_)
    match a with
    | ⟨0, _⟩ => show win0_0.index t (0 : Fin 2) * 2000 + 1 * p.val = r.val; omega
    | ⟨1, _⟩ => show win0_0.index t (1 : Fin 2) * 128 + 1 * k.val = k.val; omega
  have h1 : ∀ k : Fin 128, iblk0 V c 1 t (ix2 p k) = V c main_arg0 (ix2 r k) := fun k => by
    show V c main_arg0 (((cfg0.win 1).blk t).view.emb (ix2 p k)) = _
    refine congrArg _ (funext fun a => Fin.ext ?_)
    match a with
    | ⟨0, _⟩ => show win0_1.index t (0 : Fin 2) * 2000 + 1 * p.val = r.val; omega
    | ⟨1, _⟩ => show win0_1.index t (1 : Fin 2) * 128 + 1 * k.val = k.val; omega
  have h2 : ∀ k : Fin 128, iblk0 V c 2 t (ix2 q k) = V c main_arg2 (ix2 q k) := fun k => by
    show V c main_arg2 (((cfg0.win 2).blk t).view.emb (ix2 q k)) = _
    refine congrArg _ (funext fun a => Fin.ext ?_)
    match a with
    | ⟨0, _⟩ => show win0_2.index t (0 : Fin 2) * 128 + 1 * q.val = q.val; omega
    | ⟨1, _⟩ => show win0_2.index t (1 : Fin 2) * 128 + 1 * k.val = k.val; omega
  have h4 : ∀ k : Fin 128, iblk0 V c 4 t (ix2 q k) = V c main_arg4 (ix2 q k) := fun k => by
    show V c main_arg4 (((cfg0.win 4).blk t).view.emb (ix2 q k)) = _
    refine congrArg _ (funext fun a => Fin.ext ?_)
    match a with
    | ⟨0, _⟩ => show win0_4.index t (0 : Fin 2) * 128 + 1 * q.val = q.val; omega
    | ⟨1, _⟩ => show win0_4.index t (1 : Fin 2) * 128 + 1 * k.val = k.val; omega
  have h3 : iblk0 V c 3 t (ix2 (0 : Fin 1) q) = V c main_v13 (ix2 (0 : Fin 1) q) := by
    show V c main_v13 (((cfg0.win 3).blk t).view.emb (ix2 (0 : Fin 1) q)) = _
    refine congrArg _ (funext fun a => Fin.ext ?_)
    match a with
    | ⟨0, _⟩ => show win0_3.index t (0 : Fin 2) * 1 + 1 * 0 = 0; omega
    | ⟨1, _⟩ => show win0_3.index t (1 : Fin 2) * 128 + 1 * q.val = q.val; omega
  show Cert.Sage.layerEntry (N := 2000) (K := 128) (H := 128) _ _ _ _ _ p q
      = Cert.Sage.layerEntry (N := 50000) (K := 128) (H := 128) _ _ _ _ _ r q
  unfold Cert.Sage.layerEntry
  simp only [h0, h1, h2, h4, h3]

/-- An array index lies in point `t`'s output block iff each coordinate is in the block's range on its axis. -/
theorem mem_blk (t : Fin cfg0.N) (i : S50000x128.Idx) :
    i ∈ ((cfg0.win 5).blk t).view.set ↔ ∀ a : Fin 2, win0_5.index t a * S2000x128.size a ≤ (i a).val
      ∧ (i a).val < win0_5.index t a * S2000x128.size a + S2000x128.size a := by
  show i ∈ ((View.whole main_v28).slice (win0_5.rect t)).set ↔ _
  rw [View.set_slice_whole, Rect.mem_set_unit]
  exact Iff.rfl

/-- Row `r` of the output lies in block `r / 2000`. -/
theorem cover (i : S50000x128.Idx) :
    ∃ t : Fin cfg0.N, (cfg0.win 5).flush t = true ∧ i ∈ ((cfg0.win 5).blk t).view.set := by
  have hN : cfg0.N = 25 := N_0
  have hi0 : (i 0).val < 50000 := (i 0).isLt
  have hi1 : (i 1).val < 128 := (i 1).isLt
  obtain ⟨t, htv⟩ : ∃ t : Fin cfg0.N, t.val = (i 0).val / 2000 := ⟨⟨(i 0).val / 2000, by rw [hN]; omega⟩, rfl⟩
  obtain ⟨-, -, -, -, -, -, -, -, -, -, e50, e51⟩ := idx_facts t
  refine ⟨t, flush0_5 t, ?_⟩
  rw [mem_blk]
  intro a
  match a with
  | ⟨0, _⟩ =>
    show win0_5.index t (0 : Fin 2) * 2000 ≤ (i 0).val ∧ (i 0).val < win0_5.index t (0 : Fin 2) * 2000 + 2000
    omega
  | ⟨1, _⟩ =>
    show win0_5.index t (1 : Fin 2) * 128 ≤ (i 1).val ∧ (i 1).val < win0_5.index t (1 : Fin 2) * 128 + 128
    omega

/-- After the launch its output array holds the layer's function of the arrays the launch found. -/
theorem value (c : Dev nD) :
    (dat0 (F := Ideal) V c).arrAt 5 cfg0.N
      = G (V c main_v27) (V c main_arg0) (V c main_arg2) (V c main_v13) (V c main_arg4) :=
  (dat0 V c).arrAt_eq_of_cover 5 _ (fun t _ => flushed_eq V c t) cover

end Cert.KernelIdeal.Layer0

end
-- ==== Proof.Layer1Value.lean ====
/-
  What the second layer's launch leaves in its output array.

  The same body as the first layer's, over other arrays: block `t` of the second mean aggregate and of the first
  layer's output, the second layer's weights and bias row. At row `p`, column `q` of block `t` it stores
  `max (Σₖ agg(r,k)·Wl(q,k) + Σₖ h(r,k)·Wr(q,k) + b(q), 0)` for the array row `r = 2000·t + p`, and the 25 blocks tile the
  50000 rows, so the output array ends at the layer's function of the arrays the launch found.
-/
import proofs.«180235_j27212912788332_1_alg».proof.Proof.Layer0Value

set_option maxRecDepth 16384

noncomputable section

open scoped BigOperators

namespace Cert.KernelIdeal.Layer1

open Cert.KernelIdeal Cert.KernelIdeal.Gen
open Idealize.ShloMosaic Idealize.ShloMosaic.TcCoe Idealize.ShloMosaic.ValueIdx Idealize.SL.Sem
open Idealize.ShloMosaic.Pipeline (Dat)
open Cert.KernelIdeal.Layer0 (hz dot_apply G)

/-- The body's stored value at (p, q) of the block, from the blocks it loaded. -/
theorem pay_apply (x0 x1 : Vec Ideal S2000x128 .f32) (x2 x4 : Vec Ideal S128x128 .f32) (x3 : Vec Ideal S1x128 .f32)
    (p : Fin 2000) (q : Fin 128) :
    k1_pay1 (F := Ideal) x0 x1 x2 x4 x3 (ix2 p q)
      = Cert.Sage.layerEntry x0 x1 x2 x4 (fun j => x3 (ix2 (0 : Fin 1) j)) p q := by
  unfold k1_pay1 Cert.Sage.layerEntry
  dsimp only
  rw [maximumf_apply, addf_apply, addf_apply, dot_apply, dot_apply, broadcastTo_1b_ab_apply]
  simp only [shapeCast_self]
  rfl

/-- Where the blocks sit: the row-tiled windows' block `t` starts at row block `t`, column block 0; the weights and
    the bias row are one block at the origin. -/
theorem idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

variable (V : (c : Dev nD) → (b : Ref sig .tc) → Buf (Elt Ideal) ((c : Thread nD τ).loc b))

/-- What point `t` writes back is block `t` of the layer's function of the arrays the launch found. -/
theorem flushed_eq (c : Dev nD) (t : Fin cfg1.N) :
    (dat1 (F := Ideal) V c).flushed 5 t
      = ((cfg1.win 5).blk t).view.read (Elt Ideal)
          (G (V c main_v40) (V c main_v28) (V c main_arg5) (V c main_v14) (V c main_arg7)) := by
  show (cfg1.win 5).cut (grid1.coords t) ((dat1 V c).after 5 t) = _
  rw [after1_5]
  unfold out1_5
  rw [View.canon_unit_zero hz]
  simp only [View.ld_unit_zero (S := S2000x128) hz, View.ld_unit_zero (S := S128x128) hz, View.ld_unit_zero (S := S1x128) hz]
  obtain ⟨e00, e01, e10, e11, e20, e21, e30, e31, e40, e41, e50, e51⟩ := idx_facts t
  have hN : cfg1.N = 25 := N_1
  have ht : t.val < 25 := hN ▸ t.isLt
  funext j
  obtain ⟨p, q, rfl⟩ : ∃ (p : Fin 2000) (q : Fin 128), j = ix2 p q := ⟨j 0, j 1, eq_ix2 j⟩
  have hp : p.val < 2000 := p.isLt
  obtain ⟨r, hr⟩ : ∃ r : Fin 50000, r.val = t.val * 2000 + p.val := ⟨⟨t.val * 2000 + p.val, by omega⟩, rfl⟩
  show k1_pay1 (F := Ideal) (iblk1 V c 0 t) (iblk1 V c 1 t) (iblk1 V c 2 t) (iblk1 V c 4 t) (iblk1 V c 3 t) (ix2 p q)
      = G (V c main_v40) (V c main_v28) (V c main_arg5) (V c main_v14) (V c main_arg7) (((cfg1.win 5).blk t).view.emb (ix2 p q))
  refine (pay_apply (iblk1 V c 0 t) (iblk1 V c 1 t) (iblk1 V c 2 t) (iblk1 V c 4 t) (iblk1 V c 3 t) p q).trans ?_
  have hemb : ((cfg1.win 5).blk t).view.emb (ix2 p q) = (ix2 r q : S50000x128.Idx) := by
    funext a; apply Fin.ext
    match a with
    | ⟨0, _⟩ => show win1_5.index t (0 : Fin 2) * 2000 + 1 * p.val = r.val; omega
    | ⟨1, _⟩ => show win1_5.index t (1 : Fin 2) * 128 + 1 * q.val = q.val; omega
  rw [hemb]
  have h0 : ∀ k : Fin 128, iblk1 V c 0 t (ix2 p k) = V c main_v40 (ix2 r k) := fun k => by
    show V c main_v40 (((cfg1.win 0).blk t).view.emb (ix2 p k)) = _
    refine congrArg _ (funext fun a => Fin.ext ?_)
    match a with
    | ⟨0, _⟩ => show win1_0.index t (0 : Fin 2) * 2000 + 1 * p.val = r.val; omega
    | ⟨1, _⟩ => show win1_0.index t (1 : Fin 2) * 128 + 1 * k.val = k.val; omega
  have h1 : ∀ k : Fin 128, iblk1 V c 1 t (ix2 p k) = V c main_v28 (ix2 r k) := fun k => by
    show V c main_v28 (((cfg1.win 1).blk t).view.emb (ix2 p k)) = _
    refine congrArg _ (funext fun a => Fin.ext ?_)
    match a with
    | ⟨0, _⟩ => show win1_1.index t (0 : Fin 2) * 2000 + 1 * p.val = r.val; omega
    | ⟨1, _⟩ => show win1_1.index t (1 : Fin 2) * 128 + 1 * k.val = k.val; omega
  have h2 : ∀ k : Fin 128, iblk1 V c 2 t (ix2 q k) = V c main_arg5 (ix2 q k) := fun k => by
    show V c main_arg5 (((cfg1.win 2).blk t).view.emb (ix2 q k)) = _
    refine congrArg _ (funext fun a => Fin.ext ?_)
    match a with
    | ⟨0, _⟩ => show win1_2.index t (0 : Fin 2) * 128 + 1 * q.val = q.val; omega
    | ⟨1, _⟩ => show win1_2.index t (1 : Fin 2) * 128 + 1 * k.val = k.val; omega
  have h4 : ∀ k : Fin 128, iblk1 V c 4 t (ix2 q k) = V c main_arg7 (ix2 q k) := fun k => by
    show V c main_arg7 (((cfg1.win 4).blk t).view.emb (ix2 q k)) = _
    refine congrArg _ (funext fun a => Fin.ext ?_)
    match a with
    | ⟨0, _⟩ => show win1_4.index t (0 : Fin 2) * 128 + 1 * q.val = q.val; omega
    | ⟨1, _⟩ => show win1_4.index t (1 : Fin 2) * 128 + 1 * k.val = k.val; omega
  have h3 : iblk1 V c 3 t (ix2 (0 : Fin 1) q) = V c main_v14 (ix2 (0 : Fin 1) q) := by
    show V c main_v14 (((cfg1.win 3).blk t).view.emb (ix2 (0 : Fin 1) q)) = _
    refine congrArg _ (funext fun a => Fin.ext ?_)
    match a with
    | ⟨0, _⟩ => show win1_3.index t (0 : Fin 2) * 1 + 1 * 0 = 0; omega
    | ⟨1, _⟩ => show win1_3.index t (1 : Fin 2) * 128 + 1 * q.val = q.val; omega
  show Cert.Sage.layerEntry (N := 2000) (K := 128) (H := 128) _ _ _ _ _ p q
      = Cert.Sage.layerEntry (N := 50000) (K := 128) (H := 128) _ _ _ _ _ r q
  unfold Cert.Sage.layerEntry
  simp only [h0, h1, h2, h4, h3]

/-- An array index lies in point `t`'s output block iff each coordinate is in the block's range on its axis. -/
theorem mem_blk (t : Fin cfg1.N) (i : S50000x128.Idx) :
    i ∈ ((cfg1.win 5).blk t).view.set ↔ ∀ a : Fin 2, win1_5.index t a * S2000x128.size a ≤ (i a).val
      ∧ (i a).val < win1_5.index t a * S2000x128.size a + S2000x128.size a := by
  show i ∈ ((View.whole main_v41).slice (win1_5.rect t)).set ↔ _
  rw [View.set_slice_whole, Rect.mem_set_unit]
  exact Iff.rfl

/-- Row `r` of the output lies in block `r / 2000`. -/
theorem cover (i : S50000x128.Idx) :
    ∃ t : Fin cfg1.N, (cfg1.win 5).flush t = true ∧ i ∈ ((cfg1.win 5).blk t).view.set := by
  have hN : cfg1.N = 25 := N_1
  have hi0 : (i 0).val < 50000 := (i 0).isLt
  have hi1 : (i 1).val < 128 := (i 1).isLt
  obtain ⟨t, htv⟩ : ∃ t : Fin cfg1.N, t.val = (i 0).val / 2000 := ⟨⟨(i 0).val / 2000, by rw [hN]; omega⟩, rfl⟩
  obtain ⟨-, -, -, -, -, -, -, -, -, -, e50, e51⟩ := idx_facts t
  refine ⟨t, flush1_5 t, ?_⟩
  rw [mem_blk]
  intro a
  match a with
  | ⟨0, _⟩ =>
    show win1_5.index t (0 : Fin 2) * 2000 ≤ (i 0).val ∧ (i 0).val < win1_5.index t (0 : Fin 2) * 2000 + 2000
    omega
  | ⟨1, _⟩ =>
    show win1_5.index t (1 : Fin 2) * 128 ≤ (i 1).val ∧ (i 1).val < win1_5.index t (1 : Fin 2) * 128 + 128
    omega

/-- After the launch its output array holds the layer's function of the arrays the launch found. -/
theorem value (c : Dev nD) :
    (dat1 (F := Ideal) V c).arrAt 5 cfg1.N
      = G (V c main_v40) (V c main_v28) (V c main_arg5) (V c main_v14) (V c main_arg7) :=
  (dat1 V c).arrAt_eq_of_cover 5 _ (fun t _ => flushed_eq V c t) cover

end Cert.KernelIdeal.Layer1

end
-- ==== Proof.HeadValue.lean ====
/-
  What the head's launch leaves in its output array.

  The launch walks 25 blocks of 2000 rows of the second layer's output. At block `t` the body reads rows
  `2000·t … 2000·t + 1999`, the head's weight matrix and bias row whole, and stores, at row `p` and column `q`
  of the block, `Σₖ h(r,k)·W(q,k) + b(q)` for the array row `r = 2000·t + p`. The blocks tile the 50000 rows, so
  the output array ends at that function of the arrays the launch found.
-/
import proofs.«180235_j27212912788332_1_alg».proof.Proof.Gen.KernelIdeal.Frame
import proofs.«180235_j27212912788332_1_alg».proof.Proof.SageMath
import proofs.«180235_j27212912788332_1_alg».proof.Proof.LibPlainDot
import Idealize.ShloMosaic.Lib.Pipeline.Value
import Idealize.ShloMosaic.Lib.ValueLayout

set_option maxRecDepth 16384

noncomputable section

open scoped BigOperators

namespace Cert.KernelIdeal.Head

open Cert.KernelIdeal Cert.KernelIdeal.Gen
open Idealize.ShloMosaic Idealize.ShloMosaic.TcCoe Idealize.ShloMosaic.ValueIdx Idealize.SL.Sem
open Idealize.ShloMosaic.Pipeline (Dat)

/-- The zero offsets of a whole-buffer access. -/
theorem hz : (![0, 0] : Fin 2 → Nat) = fun _ => 0 := funext fun a => by fin_cases a <;> rfl

/-- The body's product at (p, q): the operand's row `p` against the weight's row `q`. -/
theorem dot_apply (a : FVec Ideal S2000x128 .bf16) (w : FVec Ideal S64x128 .bf16) (p : Fin 2000) (q : Fin 64) :
    matmul dot_S2000x128_S128x64_S2000x64_1_0_0_1_n_n none a
        (transpose S128x64 [1, 0] w transposes_S64x128_p1_0_S128x64) (constant S2000x64 .f32 0x00000000#32) (ix2 p q)
      = ∑ k : Fin 128, a (ix2 p k) * w (ix2 q k) := by
  refine (PlainDot.matmul_zero_apply (M := 2000) (K := 128) (N := 64) none a _ p q).trans ?_
  refine Finset.sum_congr rfl fun k _ => ?_
  rw [transpose_ix2_apply]

/-- The body's stored value at (p, q) of the block, from the blocks it loaded. -/
theorem pay_apply (x0 : Vec Ideal S2000x128 .f32) (x1 : Vec Ideal S64x128 .f32) (x2 : Vec Ideal S1x64 .f32)
    (p : Fin 2000) (q : Fin 64) :
    k2_pay1 (F := Ideal) x0 x1 x2 (ix2 p q)
      = Cert.Sage.headEntry x0 x1 (fun j => x2 (ix2 (0 : Fin 1) j)) p q := by
  unfold k2_pay1 Cert.Sage.headEntry
  dsimp only
  rw [addf_apply, dot_apply, broadcastTo_1b_ab_apply]
  simp only [shapeCast_self]
  rfl

/-- The head as one function of the arrays the launch finds, index by index. -/
def G (x : S50000x128.Idx → EReal) (W : S64x128.Idx → EReal) (b : S1x64.Idx → EReal) : S50000x64.Idx → EReal :=
  fun i => Cert.Sage.headEntry (N := 50000) (K := 128) (H := 64) x W (fun j => b (ix2 (0 : Fin 1) j)) (i 0) (i 1)

/-- Where the blocks sit: the row-tiled windows' block `t` starts at row block `t`, column block 0; the weight and
    the bias row are one block at the origin. -/
theorem idx_facts : ∀ t : Fin cfg2.N,
    win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = t.val ∧ win2_3.index t (1 : Fin 2) = 0 :=
  (by decide +kernel : ∀ t : Fin grid2.N, _)

variable (V : (c : Dev nD) → (b : Ref sig .tc) → Buf (Elt Ideal) ((c : Thread nD τ).loc b))

/-- What point `t` writes back is block `t` of the head's function of the arrays the launch found. -/
theorem flushed_eq (c : Dev nD) (t : Fin cfg2.N) :
    (dat2 (F := Ideal) V c).flushed 3 t
      = ((cfg2.win 3).blk t).view.read (Elt Ideal) (G (V c main_v41) (V c main_arg8) (V c main_v15)) := by
  show (cfg2.win 3).cut (grid2.coords t) ((dat2 V c).after 3 t) = _
  rw [after2_3]
  unfold out2_3
  rw [View.canon_unit_zero hz]
  simp only [View.ld_unit_zero (S := S2000x128) hz, View.ld_unit_zero (S := S64x128) hz, View.ld_unit_zero (S := S1x64) hz]
  obtain ⟨e00, e01, e10, e11, e20, e21, e30, e31⟩ := idx_facts t
  have hN : cfg2.N = 25 := N_2
  have ht : t.val < 25 := hN ▸ t.isLt
  funext j
  obtain ⟨p, q, rfl⟩ : ∃ (p : Fin 2000) (q : Fin 64), j = ix2 p q := ⟨j 0, j 1, eq_ix2 j⟩
  have hp : p.val < 2000 := p.isLt
  obtain ⟨r, hr⟩ : ∃ r : Fin 50000, r.val = t.val * 2000 + p.val := ⟨⟨t.val * 2000 + p.val, by omega⟩, rfl⟩
  show k2_pay1 (F := Ideal) (iblk2 V c 0 t) (iblk2 V c 1 t) (iblk2 V c 2 t) (ix2 p q)
      = G (V c main_v41) (V c main_arg8) (V c main_v15) (((cfg2.win 3).blk t).view.emb (ix2 p q))
  refine (pay_apply (iblk2 V c 0 t) (iblk2 V c 1 t) (iblk2 V c 2 t) p q).trans ?_
  have hemb : ((cfg2.win 3).blk t).view.emb (ix2 p q) = (ix2 r q : S50000x64.Idx) := by
    funext a; apply Fin.ext
    match a with
    | ⟨0, _⟩ => show win2_3.index t (0 : Fin 2) * 2000 + 1 * p.val = r.val; omega
    | ⟨1, _⟩ => show win2_3.index t (1 : Fin 2) * 64 + 1 * q.val = q.val; omega
  rw [hemb]
  have h0 : ∀ k : Fin 128, iblk2 V c 0 t (ix2 p k) = V c main_v41 (ix2 r k) := fun k => by
    show V c main_v41 (((cfg2.win 0).blk t).view.emb (ix2 p k)) = _
    refine congrArg _ (funext fun a => Fin.ext ?_)
    match a with
    | ⟨0, _⟩ => show win2_0.index t (0 : Fin 2) * 2000 + 1 * p.val = r.val; omega
    | ⟨1, _⟩ => show win2_0.index t (1 : Fin 2) * 128 + 1 * k.val = k.val; omega
  have h1 : ∀ k : Fin 128, iblk2 V c 1 t (ix2 q k) = V c main_arg8 (ix2 q k) := fun k => by
    show V c main_arg8 (((cfg2.win 1).blk t).view.emb (ix2 q k)) = _
    refine congrArg _ (funext fun a => Fin.ext ?_)
    match a with
    | ⟨0, _⟩ => show win2_1.index t (0 : Fin 2) * 64 + 1 * q.val = q.val; omega
    | ⟨1, _⟩ => show win2_1.index t (1 : Fin 2) * 128 + 1 * k.val = k.val; omega
  have h2 : iblk2 V c 2 t (ix2 (0 : Fin 1) q) = V c main_v15 (ix2 (0 : Fin 1) q) := by
    show V c main_v15 (((cfg2.win 2).blk t).view.emb (ix2 (0 : Fin 1) q)) = _
    refine congrArg _ (funext fun a => Fin.ext ?_)
    match a with
    | ⟨0, _⟩ => show win2_2.index t (0 : Fin 2) * 1 + 1 * 0 = 0; omega
    | ⟨1, _⟩ => show win2_2.index t (1 : Fin 2) * 64 + 1 * q.val = q.val; omega
  show Cert.Sage.headEntry (N := 2000) (K := 128) (H := 64) _ _ _ p q
      = Cert.Sage.headEntry (N := 50000) (K := 128) (H := 64) _ _ _ r q
  unfold Cert.Sage.headEntry
  simp only [h0, h1, h2]

/-- An array index lies in point `t`'s output block iff each coordinate is in the block's range on its axis. -/
theorem mem_blk (t : Fin cfg2.N) (i : S50000x64.Idx) :
    i ∈ ((cfg2.win 3).blk t).view.set ↔ ∀ a : Fin 2, win2_3.index t a * S2000x64.size a ≤ (i a).val
      ∧ (i a).val < win2_3.index t a * S2000x64.size a + S2000x64.size a := by
  show i ∈ ((View.whole main_v42).slice (win2_3.rect t)).set ↔ _
  rw [View.set_slice_whole, Rect.mem_set_unit]
  exact Iff.rfl

/-- Row `r` of the output lies in block `r / 2000`. -/
theorem cover (i : S50000x64.Idx) :
    ∃ t : Fin cfg2.N, (cfg2.win 3).flush t = true ∧ i ∈ ((cfg2.win 3).blk t).view.set := by
  have hN : cfg2.N = 25 := N_2
  have hi0 : (i 0).val < 50000 := (i 0).isLt
  have hi1 : (i 1).val < 64 := (i 1).isLt
  obtain ⟨t, htv⟩ : ∃ t : Fin cfg2.N, t.val = (i 0).val / 2000 := ⟨⟨(i 0).val / 2000, by rw [hN]; omega⟩, rfl⟩
  obtain ⟨-, -, -, -, -, -, e30, e31⟩ := idx_facts t
  refine ⟨t, flush2_3 t, ?_⟩
  rw [mem_blk]
  intro a
  match a with
  | ⟨0, _⟩ =>
    show win2_3.index t (0 : Fin 2) * 2000 ≤ (i 0).val ∧ (i 0).val < win2_3.index t (0 : Fin 2) * 2000 + 2000
    omega
  | ⟨1, _⟩ =>
    show win2_3.index t (1 : Fin 2) * 64 ≤ (i 1).val ∧ (i 1).val < win2_3.index t (1 : Fin 2) * 64 + 64
    omega

/-- After the launch its output array holds the head's function of the arrays the launch found. -/
theorem value (c : Dev nD) :
    (dat2 (F := Ideal) V c).arrAt 3 cfg2.N = G (V c main_v41) (V c main_arg8) (V c main_v15) :=
  (dat2 V c).arrAt_eq_of_cover 3 _ (fun t _ => flushed_eq V c t) cover

end Cert.KernelIdeal.Head

end
-- ==== Proof.RefTerms.lean ====
/-
  The network as composed array functions, and each stage read at an index.

  Each edge (s, d) carries row `s` of the features to node `d`; a node's sum of the rows it receives is a
  gather along the edges' sources followed by a scatter-add along their destinations, and its in-degree is
  the scatter-add of ones. Neither is opened here: both programs apply the same gather and the same scatters
  to the same operands, so they stay the two functions `segSum` and `degree` of the edge list. A layer then
  takes the mean aggregate through one weight, the node's own row through another, adds the bias and clamps at
  zero; the head is one more product and bias.

  The mean is written in two ways: the sum divided by the clamped degree (`meanDiv`), and the sum multiplied
  by the reciprocal of the clamped degree (`meanMul`). They are the same array (`mean_eq`).
-/
import proofs.«180235_j27212912788332_1_alg».proof.Proof.Gen.ReferenceIdeal
import proofs.«180235_j27212912788332_1_alg».proof.Proof.SageMath
import proofs.«180235_j27212912788332_1_alg».proof.Proof.LibPlainDot
import Idealize.ShloMosaic.Lib.Pipeline.Value
import Idealize.ShloMosaic.Lib.ValueLayout

set_option maxRecDepth 16384

noncomputable section

open scoped BigOperators

namespace Cert.ReferenceIdeal.Terms

open Cert.ReferenceIdeal Cert.ReferenceIdeal.Gen Idealize.ShloMosaic Idealize.ShloMosaic.ValueIdx

/-! ## The arrays -/

/-- Each edge's destination node, as a column of indices. -/
def dstCol (e : IVec S2x800000 32) : IVec S800000x1 32 :=
  broadcastInDim S800000x1 ![0] bcast_S800000_S800000x1_0
    (shapeCast _ (extractStridedSlice S1x800000 ![1, 0] e slices_S2x800000_S1x800000_1_0) shapeCasts_S1x800000_S800000)

/-- Each edge's source node, a negative index counted from the end, as a column of indices. -/
def srcCol (e : IVec S2x800000 32) : IVec S800000x1 32 :=
  broadcastInDim S800000x1 ![0] bcast_S800000_S800000x1_0
    (select (cmpi .slt (shapeCast _ (extractStridedSlice S1x800000 ![0, 0] e slices_S2x800000_S1x800000_0_0) shapeCasts_S1x800000_S800000)
        (broadcastInDim S800000 ![] bcast_S_S800000 (constantI S_ 32 0#32)))
      (addi (shapeCast _ (extractStridedSlice S1x800000 ![0, 0] e slices_S2x800000_S1x800000_0_0) shapeCasts_S1x800000_S800000)
        (broadcastInDim S800000 ![] bcast_S_S800000 (constantI S_ 32 50000#32)))
      (shapeCast _ (extractStridedSlice S1x800000 ![0, 0] e slices_S2x800000_S1x800000_0_0) shapeCasts_S1x800000_S800000))

/-- At each node, the sum of the feature rows its in-edges carry. -/
def segSum (e : IVec S2x800000 32) (feat : FVec Ideal S50000x128 .f32) : FVec Ideal S50000x128 .f32 :=
  Host.scatterAdd scatter_S50000x128_S800000x1_S800000x128_1_0_0_1
    (broadcastInDim S50000x128 ![] bcast_S_S50000x128 (constant (F := Ideal) S_ .f32 0x00000000#32)) (dstCol e)
    (Host.gather gather_S50000x128_S800000x1_S800000x128_1_0_n_n_0_1_1128 feat (srcCol e))

/-- Each node's in-degree. -/
def inDegree (e : IVec S2x800000 32) : FVec Ideal S50000 .f32 :=
  Host.scatterAdd scatter_S50000_S800000x1_S800000_n_0_0_1
    (broadcastInDim S50000 ![] bcast_S_S50000 (constant (F := Ideal) S_ .f32 0x00000000#32)) (dstCol e)
    (broadcastInDim S800000 ![] bcast_S_S800000 (constant (F := Ideal) S_ .f32 0x3F800000#32))

/-- Each node's in-degree, clamped below at one. -/
def degree (e : IVec S2x800000 32) : FVec Ideal S50000 .f32 :=
  maximumf (inDegree e) (broadcastInDim S50000 ![] bcast_S_S50000 (constant (F := Ideal) S_ .f32 0x3F800000#32))

/-- A value per node, repeated across the feature columns. -/
def spread (v : FVec Ideal S50000 .f32) : FVec Ideal S50000x128 .f32 :=
  broadcastInDim S50000x128 ![0, 1] bcast_S50000x1_S50000x128_0_1 (broadcastInDim S50000x1 ![0] bcast_S50000_S50000x1_0 v)

/-- The mean aggregate: the sum divided by the clamped degree. -/
def meanDiv (e : IVec S2x800000 32) (feat : FVec Ideal S50000x128 .f32) : FVec Ideal S50000x128 .f32 :=
  Host.divf (segSum e feat) (spread (degree e))

/-- The mean aggregate: the sum times the reciprocal of the clamped degree. -/
def meanMul (e : IVec S2x800000 32) (feat : FVec Ideal S50000x128 .f32) : FVec Ideal S50000x128 .f32 :=
  mulf (segSum e feat)
    (spread (Host.divf (broadcastInDim S50000 ![] bcast_S_S50000 (constant (F := Ideal) S_ .f32 0x3F800000#32)) (degree e)))

/-- One layer: the aggregate through `Wl`, the bias, the node's own row through `Wr`, the clamp at zero. -/
def layer (agg x : FVec Ideal S50000x128 .f32) (Wl : FVec Ideal S128x128 .f32) (b : FVec Ideal S128 .f32)
    (Wr : FVec Ideal S128x128 .f32) : FVec Ideal S50000x128 .f32 :=
  maximumf
    (addf
      (addf (Host.dotGeneral dot_S50000x128_S128x128_S50000x128_1_0_0_1_n_n none agg
          (transpose S128x128 [1, 0] Wl transposes_S128x128_S128x128_1_0))
        (broadcastInDim S50000x128 ![0, 1] bcast_S1x128_S50000x128_0_1 (broadcastInDim S1x128 ![1] bcast_S128_S1x128_1 b)))
      (Host.dotGeneral dot_S50000x128_S128x128_S50000x128_1_0_0_1_n_n none x
        (transpose S128x128 [1, 0] Wr transposes_S128x128_S128x128_1_0)))
    (broadcastInDim S50000x128 ![] bcast_S_S50000x128 (constant (F := Ideal) S_ .f32 0x00000000#32))

/-- The linear head. -/
def head (x : FVec Ideal S50000x128 .f32) (W : FVec Ideal S64x128 .f32) (b : FVec Ideal S64 .f32) :
    FVec Ideal S50000x64 .f32 :=
  addf (Host.dotGeneral dot_S50000x128_S128x64_S50000x64_1_0_0_1_n_n none x
      (transpose S128x64 [1, 0] W transposes_S64x128_S128x64_1_0))
    (broadcastInDim S50000x64 ![0, 1] bcast_S1x64_S50000x64_0_1 (broadcastInDim S1x64 ![1] bcast_S64_S1x64_1 b))

/-- The whole network, with the mean aggregate as a parameter. -/
def net (mean : IVec S2x800000 32 → FVec Ideal S50000x128 .f32 → FVec Ideal S50000x128 .f32)
    (x : FVec Ideal S50000x128 .f32) (e : IVec S2x800000 32)
    (W1l : FVec Ideal S128x128 .f32) (b1 : FVec Ideal S128 .f32) (W1r : FVec Ideal S128x128 .f32)
    (W2l : FVec Ideal S128x128 .f32) (b2 : FVec Ideal S128 .f32) (W2r : FVec Ideal S128x128 .f32)
    (W3 : FVec Ideal S64x128 .f32) (b3 : FVec Ideal S64 .f32) : FVec Ideal S50000x64 .f32 :=
  head (layer (mean e (layer (mean e x) x W1l b1 W1r)) (layer (mean e x) x W1l b1 W1r) W2l b2 W2r) W3 b3

/-! ## Read at an index -/

/-- A constant spread over an array reads as the constant. -/
theorem splat_apply {t : Shape} (h : S_.BroadcastsInDim t ![]) (w : BitVec 32) (j : t.Idx) :
    broadcastInDim t ![] h (constant (F := Ideal) S_ .f32 w) j = Ideal.ofBits .f32 w :=
  broadcastInDim_apply ![] h _ j ix0 fun a => a.elim0

/-- A per-node value spread across the columns reads, at (p, q), the node `p`'s value. -/
theorem spread_apply (v : FVec Ideal S50000 .f32) (p : Fin 50000) (q : Fin 128) : spread v (ix2 p q) = v (ix1 p) := by
  unfold spread
  rw [broadcastInDim_apply ![0, 1] bcast_S50000x1_S50000x128_0_1 _ (ix2 p q) (ix2 p (0 : Fin 1))
      (fun a => match a with | ⟨0, _⟩ => rfl | ⟨1, _⟩ => rfl),
    broadcastInDim_apply ![0] bcast_S50000_S50000x1_0 v (ix2 p (0 : Fin 1)) (ix1 p)
      (fun a => match a with | ⟨0, _⟩ => rfl)]

/-- The host's quotient of two arrays reads, at an index, the quotient of the entries. -/
theorem hostDivf_apply {s : Shape} (a b : FVec Ideal s .f32) (i : s.Idx) : Host.divf a b i = Ideal.div (a i) (b i) := rfl

/-- The clamped degree of node `p`. -/
theorem degree_apply (e : IVec S2x800000 32) (p : Fin 50000) :
    degree e (ix1 p) = max (inDegree e (ix1 p)) (Ideal.ofBits .f32 0x3F800000#32) := by
  unfold degree
  rw [maximumf_apply, splat_apply]

/-- The two ways of writing the mean aggregate are one array: entry (p, q) is the sum's entry divided by node
    `p`'s clamped degree, or multiplied by that degree's reciprocal. -/
theorem mean_eq (e : IVec S2x800000 32) (feat : FVec Ideal S50000x128 .f32) : meanMul e feat = meanDiv e feat := by
  funext i
  obtain ⟨p, q, rfl⟩ : ∃ (p : Fin 50000) (q : Fin 128), i = ix2 p q := ⟨i 0, i 1, eq_ix2 i⟩
  unfold meanMul meanDiv
  rw [mulf_apply, hostDivf_apply, spread_apply, spread_apply, hostDivf_apply, degree_apply, splat_apply]
  generalize segSum e feat (ix2 p q) = s
  generalize inDegree e (ix1 p) = n
  exact (Cert.Sage.div_clamped s n).symm

/-- One product of a layer at (p, q): the operand's row `p` against the weight's row `q`. -/
theorem dot_apply (a : FVec Ideal S50000x128 .f32) (w : FVec Ideal S128x128 .f32) (p : Fin 50000) (q : Fin 128) :
    FloatOps.dotGeneral dot_S50000x128_S128x128_S50000x128_1_0_0_1_n_n none .single a
        (transpose S128x128 [1, 0] w transposes_S128x128_S128x128_1_0) (ix2 p q)
      = ∑ k : Fin 128, a (ix2 p k) * w (ix2 q k) := by
  refine (PlainDot.dotGeneral_apply (M := 50000) (K := 128) (N := 128) none .single a _ p q).trans ?_
  refine Finset.sum_congr rfl fun k _ => ?_
  rw [transpose_ix2_apply]

/-- The head's product at (p, q). -/
theorem dot64_apply (a : FVec Ideal S50000x128 .f32) (w : FVec Ideal S64x128 .f32) (p : Fin 50000) (q : Fin 64) :
    FloatOps.dotGeneral dot_S50000x128_S128x64_S50000x64_1_0_0_1_n_n none .single a
        (transpose S128x64 [1, 0] w transposes_S64x128_S128x64_1_0) (ix2 p q)
      = ∑ k : Fin 128, a (ix2 p k) * w (ix2 q k) := by
  refine (PlainDot.dotGeneral_apply (M := 50000) (K := 128) (N := 64) none .single a _ p q).trans ?_
  refine Finset.sum_congr rfl fun k _ => ?_
  rw [transpose_ix2_apply]

/-- A bias vector spread down the rows reads, at (p, q), its entry `q`. -/
theorem bias_apply (b : FVec Ideal S128 .f32) (p : Fin 50000) (q : Fin 128) :
    broadcastInDim S50000x128 ![0, 1] bcast_S1x128_S50000x128_0_1 (broadcastInDim S1x128 ![1] bcast_S128_S1x128_1 b) (ix2 p q)
      = b (ix1 q) := by
  rw [broadcastInDim_apply ![0, 1] bcast_S1x128_S50000x128_0_1 _ (ix2 p q) (ix2 (0 : Fin 1) q)
      (fun a => match a with | ⟨0, _⟩ => rfl | ⟨1, _⟩ => rfl),
    broadcastInDim_apply ![1] bcast_S128_S1x128_1 b (ix2 (0 : Fin 1) q) (ix1 q)
      (fun a => match a with | ⟨0, _⟩ => rfl)]

/-- The head's bias likewise. -/
theorem bias64_apply (b : FVec Ideal S64 .f32) (p : Fin 50000) (q : Fin 64) :
    broadcastInDim S50000x64 ![0, 1] bcast_S1x64_S50000x64_0_1 (broadcastInDim S1x64 ![1] bcast_S64_S1x64_1 b) (ix2 p q)
      = b (ix1 q) := by
  rw [broadcastInDim_apply ![0, 1] bcast_S1x64_S50000x64_0_1 _ (ix2 p q) (ix2 (0 : Fin 1) q)
      (fun a => match a with | ⟨0, _⟩ => rfl | ⟨1, _⟩ => rfl),
    broadcastInDim_apply ![1] bcast_S64_S1x64_1 b (ix2 (0 : Fin 1) q) (ix1 q)
      (fun a => match a with | ⟨0, _⟩ => rfl)]

/-- A layer read at (p, q). -/
theorem layer_apply (agg x : FVec Ideal S50000x128 .f32) (Wl : FVec Ideal S128x128 .f32) (b : FVec Ideal S128 .f32)
    (Wr : FVec Ideal S128x128 .f32) (p : Fin 50000) (q : Fin 128) :
    layer agg x Wl b Wr (ix2 p q) = Cert.Sage.layerEntry agg x Wl Wr (fun j => b (ix1 j)) p q := by
  unfold layer
  rw [maximumf_apply, addf_apply, addf_apply]
  simp only [Host.dotGeneral]
  rw [dot_apply, dot_apply, bias_apply, splat_apply]
  exact Cert.Sage.layerEntry_bias_first agg x Wl Wr (fun j => b (ix1 j)) p q

/-- The head read at (p, q). -/
theorem head_apply (x : FVec Ideal S50000x128 .f32) (W : FVec Ideal S64x128 .f32) (b : FVec Ideal S64 .f32)
    (p : Fin 50000) (q : Fin 64) :
    head x W b (ix2 p q) = Cert.Sage.headEntry x W (fun j => b (ix1 j)) p q := by
  unfold head Cert.Sage.headEntry
  rw [addf_apply]
  simp only [Host.dotGeneral]
  rw [dot64_apply, bias64_apply]

end Cert.ReferenceIdeal.Terms

end
-- ==== Proof.KernelChain.lean ====
/-
  The idealized kernel's buffers at each boundary of its run, as functions of the argument arrays.

  The run alternates stretches of host operations with launches. After the first stretch the buffers hold the
  edge list's two rows, the reciprocal of each node's clamped in-degree, the bias rows reshaped to one row,
  and the first mean aggregate, written as the neighbours' sum times that reciprocal. The first launch leaves
  the first layer's output; the second stretch gathers and scatters that output along the same edges and
  multiplies by the same reciprocals; the second launch leaves the second layer's output, and the third the
  head's. No stretch and no launch writes an argument array or a buffer an earlier stretch computed, so each
  buffer read late in the run still holds what the stretch that computed it left.
-/
import proofs.«180235_j27212912788332_1_alg».proof.Proof.Gen.KernelIdeal.Frame
import proofs.«180235_j27212912788332_1_alg».proof.Proof.Layer0Value
import proofs.«180235_j27212912788332_1_alg».proof.Proof.Layer1Value
import proofs.«180235_j27212912788332_1_alg».proof.Proof.HeadValue
import proofs.«180235_j27212912788332_1_alg».proof.Proof.RefTerms

set_option maxRecDepth 16384
set_option maxHeartbeats 2000000

noncomputable section

namespace Cert.KernelIdeal.Chain

open Cert.KernelIdeal Cert.KernelIdeal.Gen
open Idealize.ShloMosaic Idealize.ShloMosaic.TcCoe Idealize.SL.Sem Idealize.ShloMosaic.StableHlo

variable (m : (ℓ : Loc nD τ sig) → Buf (Elt Ideal) ℓ) (ρ : Dev nD → PrngReg)

/-! ## After the first stretch of host operations -/

/-- The first mean aggregate: the neighbours' sum times the reciprocal of the clamped degree. -/
theorem W1_v27 (c : Dev nD) : W1 (F := Ideal) m ρ c (Proc.devRef .tc main_v27) = Cert.ReferenceIdeal.Terms.meanMul (m ((c.tc : Thread nD τ).loc main_arg1)) (m ((c.tc : Thread nD τ).loc main_arg0)) := by
  dsimp only [W1, hostOps0]
  after_results_simp
  rfl

/-- The reciprocal of each node's clamped degree, as a column. -/
theorem W1_v12 (c : Dev nD) : W1 (F := Ideal) m ρ c (Proc.devRef .tc main_v12) = broadcastInDim S50000x1 ![0] bcast_S50000_S50000x1_0
      (Host.divf (broadcastInDim S50000 ![] bcast_S_S50000 (constant (F := Ideal) S_ .f32 0x3F800000#32)) (Cert.ReferenceIdeal.Terms.degree (m ((c.tc : Thread nD τ).loc main_arg1)))) := by
  dsimp only [W1, hostOps0]
  after_results_simp
  rfl

/-- The edges' sources: the edge list's first row. -/
theorem W1_v1 (c : Dev nD) : W1 (F := Ideal) m ρ c (Proc.devRef .tc main_v1) = shapeCast S800000 (extractStridedSlice S1x800000 ![0, 0] (m ((c.tc : Thread nD τ).loc main_arg1)) slices_S2x800000_S1x800000_0_0) shapeCasts_S1x800000_S800000 := by
  dsimp only [W1, hostOps0]
  after_results_simp
  rfl

/-- The edges' destinations: the edge list's second row. -/
theorem W1_v3 (c : Dev nD) : W1 (F := Ideal) m ρ c (Proc.devRef .tc main_v3) = shapeCast S800000 (extractStridedSlice S1x800000 ![1, 0] (m ((c.tc : Thread nD τ).loc main_arg1)) slices_S2x800000_S1x800000_1_0) shapeCasts_S1x800000_S800000 := by
  dsimp only [W1, hostOps0]
  after_results_simp
  rfl

/-- The first layer's bias as one row. -/
theorem W1_v13 (c : Dev nD) : W1 (F := Ideal) m ρ c (Proc.devRef .tc main_v13) = shapeCast S1x128 (m ((c.tc : Thread nD τ).loc main_arg3)) shapeCasts_S128_S1x128 := by
  dsimp only [W1, hostOps0]
  after_results_simp
  rfl

/-- The second layer's bias as one row. -/
theorem W1_v14 (c : Dev nD) : W1 (F := Ideal) m ρ c (Proc.devRef .tc main_v14) = shapeCast S1x128 (m ((c.tc : Thread nD τ).loc main_arg6)) shapeCasts_S128_S1x128 := by
  dsimp only [W1, hostOps0]
  after_results_simp
  rfl

/-- The head's bias as one row. -/
theorem W1_v15 (c : Dev nD) : W1 (F := Ideal) m ρ c (Proc.devRef .tc main_v15) = shapeCast S1x64 (m ((c.tc : Thread nD τ).loc main_arg9)) shapeCasts_S64_S1x64 := by
  dsimp only [W1, hostOps0]
  after_results_simp
  rfl

/-- An argument array is as launched. -/
theorem W1_arg0 (c : Dev nD) : W1 (F := Ideal) m ρ c (Proc.devRef .tc main_arg0) = (m ((c.tc : Thread nD τ).loc main_arg0)) := by
  dsimp only [W1, hostOps0]
  after_results_simp

/-- An argument array is as launched. -/
theorem W1_arg2 (c : Dev nD) : W1 (F := Ideal) m ρ c (Proc.devRef .tc main_arg2) = (m ((c.tc : Thread nD τ).loc main_arg2)) := by
  dsimp only [W1, hostOps0]
  after_results_simp

/-- An argument array is as launched. -/
theorem W1_arg4 (c : Dev nD) : W1 (F := Ideal) m ρ c (Proc.devRef .tc main_arg4) = (m ((c.tc : Thread nD τ).loc main_arg4)) := by
  dsimp only [W1, hostOps0]
  after_results_simp

/-- An argument array is as launched. -/
theorem W1_arg5 (c : Dev nD) : W1 (F := Ideal) m ρ c (Proc.devRef .tc main_arg5) = (m ((c.tc : Thread nD τ).loc main_arg5)) := by
  dsimp only [W1, hostOps0]
  after_results_simp

/-- An argument array is as launched. -/
theorem W1_arg7 (c : Dev nD) : W1 (F := Ideal) m ρ c (Proc.devRef .tc main_arg7) = (m ((c.tc : Thread nD τ).loc main_arg7)) := by
  dsimp only [W1, hostOps0]
  after_results_simp

/-- An argument array is as launched. -/
theorem W1_arg8 (c : Dev nD) : W1 (F := Ideal) m ρ c (Proc.devRef .tc main_arg8) = (m ((c.tc : Thread nD τ).loc main_arg8)) := by
  dsimp only [W1, hostOps0]
  after_results_simp

/-! ## After the first launch -/

/-- The first layer's output. -/
def hidden1 (c : Dev nD) : S50000x128.Idx → EReal :=
  Layer0.G (Cert.ReferenceIdeal.Terms.meanMul (m ((c.tc : Thread nD τ).loc main_arg1)) (m ((c.tc : Thread nD τ).loc main_arg0))) (m ((c.tc : Thread nD τ).loc main_arg0)) (m ((c.tc : Thread nD τ).loc main_arg2)) (shapeCast S1x128 (m ((c.tc : Thread nD τ).loc main_arg3)) shapeCasts_S128_S1x128) (m ((c.tc : Thread nD τ).loc main_arg4))

theorem W2_v28 (c : Dev nD) : W2 (F := Ideal) m ρ c (Proc.devRef .tc main_v28) = hidden1 m c := by
  refine (W2_arr m ρ c 5).trans ?_
  refine (Layer0.value (V1 m ρ) c).trans ?_
  show Layer0.G (W1 m ρ c (Proc.devRef .tc main_v27)) (W1 m ρ c (Proc.devRef .tc main_arg0)) (W1 m ρ c (Proc.devRef .tc main_arg2))
      (W1 m ρ c (Proc.devRef .tc main_v13)) (W1 m ρ c (Proc.devRef .tc main_arg4)) = _
  rw [W1_v27, W1_arg0, W1_arg2, W1_v13, W1_arg4]
  rfl

theorem W2_v1 (c : Dev nD) : W2 (F := Ideal) m ρ c (Proc.devRef .tc main_v1) = W1 m ρ c (Proc.devRef .tc main_v1) :=
  W2_of_ne m ρ c main_v1 (by decide)
theorem W2_v3 (c : Dev nD) : W2 (F := Ideal) m ρ c (Proc.devRef .tc main_v3) = W1 m ρ c (Proc.devRef .tc main_v3) :=
  W2_of_ne m ρ c main_v3 (by decide)
theorem W2_v12 (c : Dev nD) : W2 (F := Ideal) m ρ c (Proc.devRef .tc main_v12) = W1 m ρ c (Proc.devRef .tc main_v12) :=
  W2_of_ne m ρ c main_v12 (by decide)
theorem W2_v14 (c : Dev nD) : W2 (F := Ideal) m ρ c (Proc.devRef .tc main_v14) = W1 m ρ c (Proc.devRef .tc main_v14) :=
  W2_of_ne m ρ c main_v14 (by decide)
theorem W2_v15 (c : Dev nD) : W2 (F := Ideal) m ρ c (Proc.devRef .tc main_v15) = W1 m ρ c (Proc.devRef .tc main_v15) :=
  W2_of_ne m ρ c main_v15 (by decide)
theorem W2_arg5 (c : Dev nD) : W2 (F := Ideal) m ρ c (Proc.devRef .tc main_arg5) = W1 m ρ c (Proc.devRef .tc main_arg5) :=
  W2_of_ne m ρ c main_arg5 (by decide)
theorem W2_arg7 (c : Dev nD) : W2 (F := Ideal) m ρ c (Proc.devRef .tc main_arg7) = W1 m ρ c (Proc.devRef .tc main_arg7) :=
  W2_of_ne m ρ c main_arg7 (by decide)
theorem W2_arg8 (c : Dev nD) : W2 (F := Ideal) m ρ c (Proc.devRef .tc main_arg8) = W1 m ρ c (Proc.devRef .tc main_arg8) :=
  W2_of_ne m ρ c main_arg8 (by decide)

/-! ## After the second stretch of host operations -/

/-- The second mean aggregate, of the first layer's output. -/
theorem W3_v40 (c : Dev nD) :
    W3 (F := Ideal) m ρ c (Proc.devRef .tc main_v40) = Cert.ReferenceIdeal.Terms.meanMul (m ((c.tc : Thread nD τ).loc main_arg1)) (hidden1 m c) := by
  dsimp only [W3, hostOps1]
  after_results_simp
  rw [W2_v1, W2_v3, W2_v12, W2_v28, W1_v1, W1_v3, W1_v12]
  rfl

theorem W3_v28 (c : Dev nD) : W3 (F := Ideal) m ρ c (Proc.devRef .tc main_v28) = W2 m ρ c (Proc.devRef .tc main_v28) := by
  dsimp only [W3, hostOps1]
  after_results_simp
theorem W3_v14 (c : Dev nD) : W3 (F := Ideal) m ρ c (Proc.devRef .tc main_v14) = W2 m ρ c (Proc.devRef .tc main_v14) := by
  dsimp only [W3, hostOps1]
  after_results_simp
theorem W3_v15 (c : Dev nD) : W3 (F := Ideal) m ρ c (Proc.devRef .tc main_v15) = W2 m ρ c (Proc.devRef .tc main_v15) := by
  dsimp only [W3, hostOps1]
  after_results_simp
theorem W3_arg5 (c : Dev nD) : W3 (F := Ideal) m ρ c (Proc.devRef .tc main_arg5) = W2 m ρ c (Proc.devRef .tc main_arg5) := by
  dsimp only [W3, hostOps1]
  after_results_simp
theorem W3_arg7 (c : Dev nD) : W3 (F := Ideal) m ρ c (Proc.devRef .tc main_arg7) = W2 m ρ c (Proc.devRef .tc main_arg7) := by
  dsimp only [W3, hostOps1]
  after_results_simp
theorem W3_arg8 (c : Dev nD) : W3 (F := Ideal) m ρ c (Proc.devRef .tc main_arg8) = W2 m ρ c (Proc.devRef .tc main_arg8) := by
  dsimp only [W3, hostOps1]
  after_results_simp

/-! ## After the second launch -/

/-- The second layer's output. -/
def hidden2 (c : Dev nD) : S50000x128.Idx → EReal :=
  Layer0.G (Cert.ReferenceIdeal.Terms.meanMul (m ((c.tc : Thread nD τ).loc main_arg1)) (hidden1 m c)) (hidden1 m c) (m ((c.tc : Thread nD τ).loc main_arg5)) (shapeCast S1x128 (m ((c.tc : Thread nD τ).loc main_arg6)) shapeCasts_S128_S1x128) (m ((c.tc : Thread nD τ).loc main_arg7))

theorem W4_v41 (c : Dev nD) : W4 (F := Ideal) m ρ c (Proc.devRef .tc main_v41) = hidden2 m c := by
  refine (W4_arr m ρ c 5).trans ?_
  refine (Layer1.value (V3 m ρ) c).trans ?_
  show Layer0.G (W3 m ρ c (Proc.devRef .tc main_v40)) (W3 m ρ c (Proc.devRef .tc main_v28)) (W3 m ρ c (Proc.devRef .tc main_arg5))
      (W3 m ρ c (Proc.devRef .tc main_v14)) (W3 m ρ c (Proc.devRef .tc main_arg7)) = _
  rw [W3_v40, W3_v28, W3_arg5, W3_v14, W3_arg7, W2_v28, W2_arg5, W2_v14, W2_arg7, W1_arg5, W1_v14, W1_arg7]
  rfl

theorem W4_arg8 (c : Dev nD) : W4 (F := Ideal) m ρ c (Proc.devRef .tc main_arg8) = (m ((c.tc : Thread nD τ).loc main_arg8)) :=
  (W4_of_ne m ρ c main_arg8 (by decide)).trans ((W3_arg8 m ρ c).trans ((W2_arg8 m ρ c).trans (W1_arg8 m ρ c)))

theorem W4_v15 (c : Dev nD) :
    W4 (F := Ideal) m ρ c (Proc.devRef .tc main_v15) = shapeCast S1x64 (m ((c.tc : Thread nD τ).loc main_arg9)) shapeCasts_S64_S1x64 :=
  (W4_of_ne m ρ c main_v15 (by decide)).trans ((W3_v15 m ρ c).trans ((W2_v15 m ρ c).trans (W1_v15 m ρ c)))

/-! ## After the third launch -/

/-- The kernel's result: the head of the second layer's output. -/
def result (c : Dev nD) : S50000x64.Idx → EReal :=
  Head.G (hidden2 m c) (m ((c.tc : Thread nD τ).loc main_arg8)) (shapeCast S1x64 (m ((c.tc : Thread nD τ).loc main_arg9)) shapeCasts_S64_S1x64)

theorem W5_v42 (c : Dev nD) : W5 (F := Ideal) m ρ c (Proc.devRef .tc main_v42) = result m c := by
  refine (W5_arr m ρ c 3).trans ?_
  refine (Head.value (V4 m ρ) c).trans ?_
  show Head.G (W4 m ρ c (Proc.devRef .tc main_v41)) (W4 m ρ c (Proc.devRef .tc main_arg8)) (W4 m ρ c (Proc.devRef .tc main_v15)) = _
  rw [W4_v41, W4_arg8, W4_v15]
  rfl

end Cert.KernelIdeal.Chain

end
-- ==== Proof.Bridge.lean ====
/-
  The kernel's result is the reference's network.

  A launch's whole-array function takes the bias as a one-row array and adds it last; the reference's layer
  takes the bias as a vector and adds it before the node's own term. Entry by entry the two are the same sum
  of three extended reals. The kernel's mean aggregate multiplies by the reciprocal of the clamped degree
  where the reference divides by it: one array. So the kernel's result, the head of two layers over
  the kernel's aggregates, is the reference's network of the same argument arrays.
-/
import proofs.«180235_j27212912788332_1_alg».proof.Proof.KernelChain

set_option maxRecDepth 16384

noncomputable section

open scoped BigOperators

namespace Cert.KernelIdeal.Bridge

open Cert.KernelIdeal Cert.KernelIdeal.Gen
open Idealize.ShloMosaic Idealize.ShloMosaic.TcCoe Idealize.ShloMosaic.ValueIdx Idealize.SL.Sem

/-- A launch's layer function, its bias a one-row array, is the reference's layer. -/
theorem G_eq_layer (agg x : FVec Ideal S50000x128 .f32) (Wl : FVec Ideal S128x128 .f32) (b : FVec Ideal S128 .f32)
    (Wr : FVec Ideal S128x128 .f32) :
    Layer0.G agg x Wl (shapeCast S1x128 b shapeCasts_S128_S1x128) Wr = Cert.ReferenceIdeal.Terms.layer agg x Wl b Wr := by
  funext i
  obtain ⟨p, q, rfl⟩ : ∃ (p : Fin 50000) (q : Fin 128), i = ix2 p q := ⟨i 0, i 1, eq_ix2 i⟩
  rw [Cert.ReferenceIdeal.Terms.layer_apply]
  unfold Layer0.G
  show Cert.Sage.layerEntry agg x Wl Wr (fun j => shapeCast S1x128 b shapeCasts_S128_S1x128 (ix2 (0 : Fin 1) j)) p q = _
  simp only [shapeCast_a_1a_apply]

/-- The head's launch function, its bias a one-row array, is the reference's head. -/
theorem G_eq_head (x : FVec Ideal S50000x128 .f32) (W : FVec Ideal S64x128 .f32) (b : FVec Ideal S64 .f32) :
    Head.G x W (shapeCast S1x64 b shapeCasts_S64_S1x64) = Cert.ReferenceIdeal.Terms.head x W b := by
  funext i
  obtain ⟨p, q, rfl⟩ : ∃ (p : Fin 50000) (q : Fin 64), i = ix2 p q := ⟨i 0, i 1, eq_ix2 i⟩
  rw [Cert.ReferenceIdeal.Terms.head_apply]
  unfold Head.G
  show Cert.Sage.headEntry x W (fun j => shapeCast S1x64 b shapeCasts_S64_S1x64 (ix2 (0 : Fin 1) j)) p q = _
  simp only [shapeCast_a_1a_apply]

/-- The mean aggregate by the reciprocal is the mean aggregate by the quotient, as functions. -/
theorem mean_eq : Cert.ReferenceIdeal.Terms.meanMul = Cert.ReferenceIdeal.Terms.meanDiv :=
  funext fun e => funext fun feat => Cert.ReferenceIdeal.Terms.mean_eq e feat

/-- The kernel's result is the reference's network of the same argument arrays. -/
theorem result_eq (m : (ℓ : Loc nD τ sig) → Buf (Elt Ideal) ℓ) (c : Dev nD) :
    Chain.result m c
      = Cert.ReferenceIdeal.Terms.net Cert.ReferenceIdeal.Terms.meanDiv (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) := by
  unfold Chain.result Chain.hidden2 Chain.hidden1
  rw [G_eq_layer, G_eq_layer, G_eq_head, mean_eq]
  rfl

end Cert.KernelIdeal.Bridge

end
-- ==== Proof.RefValue.lean ====
/-
  The reference's result is the network with the mean aggregate written as a quotient.

  The reference's run ends with its result buffer at the composition of its host operations applied to the
  argument arrays. That composition is the network of `Terms.net` at `Terms.meanDiv`: the same gathers, scatters,
  products, biases and clamps, in the same order.
-/
import proofs.«180235_j27212912788332_1_alg».proof.Proof.Gen.ReferenceIdeal.Run
import proofs.«180235_j27212912788332_1_alg».proof.Proof.RefTerms

set_option maxRecDepth 16384

noncomputable section

namespace Cert.ReferenceIdeal.RefValue

open Cert.ReferenceIdeal Cert.ReferenceIdeal.Gen
open Idealize.ShloMosaic Idealize.ShloMosaic.TcCoe Idealize.SL.Sem

/-- The reference's result term is the network of the argument arrays. -/
theorem result_eq (m : (ℓ : Loc nD τ sig) → Buf (Elt Ideal) ℓ) (c : Dev nD) :
    Cert.ReferenceIdeal.Value.res_main_v64 (F := Ideal) m c
      = Terms.net Terms.meanDiv (m ((c.tc : Thread nD τ).loc main_arg0)) (m ((c.tc : Thread nD τ).loc main_arg1))
          (m ((c.tc : Thread nD τ).loc main_arg2)) (m ((c.tc : Thread nD τ).loc main_arg3)) (m ((c.tc : Thread nD τ).loc main_arg4))
          (m ((c.tc : Thread nD τ).loc main_arg5)) (m ((c.tc : Thread nD τ).loc main_arg6)) (m ((c.tc : Thread nD τ).loc main_arg7))
          (m ((c.tc : Thread nD τ).loc main_arg8)) (m ((c.tc : Thread nD τ).loc main_arg9)) := by
  unfold Cert.ReferenceIdeal.Value.res_main_v64 Terms.net Terms.head Terms.layer Terms.meanDiv Terms.spread Terms.degree
    Terms.inDegree Terms.segSum Terms.srcCol Terms.dstCol
  rfl

end Cert.ReferenceIdeal.RefValue

end
-- ==== Proof.lean ====
/-
  A two-layer mean-aggregating graph network with a linear head: the tiled kernel against the plain reference.

  Both programs gather each edge's source row, scatter-add it at the edge's destination, and normalise by
  the destination's in-degree clamped below at one; a layer is `max (mean · Wlᵀ + b + x · Wrᵀ, 0)`, the head
  `h · W3ᵀ + b3`. The kernel computes each layer and the head in launches over blocks of 2000 rows, with the
  mean formed by multiplying with the reciprocal of the clamped degree and the bias added last; the reference
  divides by the clamped degree and adds the bias before the node's own term.

  On the extended reals the two agree entry by entry with no hypothesis on the inputs:
  `s / c = s · (1 / c)` whenever `c ≠ 0`, and `c ≥ 1`; addition is commutative and associative; a change of float
  format is the identity; a product against a transposed weight is the same sum over the contracted index on
  both sides; and the blocks tile the rows. The gather and the scatters are never opened: both programs apply
  the same ones to the same operands.

  The three frames: the two kernels' are the generated frame certificates; the reference's is its run with the
  result dropped. The idealisation rewrote no operation, so `preserves` has nothing to state.
-/
import proofs.«180235_j27212912788332_1_alg».proof.Defs
import proofs.«180235_j27212912788332_1_alg».proof.Proof.Gen.Kernel
import proofs.«180235_j27212912788332_1_alg».proof.Proof.Gen.Kernel.Skeleton
import proofs.«180235_j27212912788332_1_alg».proof.Proof.Gen.Kernel.Launch
import proofs.«180235_j27212912788332_1_alg».proof.Proof.Gen.Kernel.Points
import proofs.«180235_j27212912788332_1_alg».proof.Proof.Gen.Kernel.Frame
import proofs.«180235_j27212912788332_1_alg».proof.Proof.Gen.KernelIdeal
import proofs.«180235_j27212912788332_1_alg».proof.Proof.Gen.KernelIdeal.Skeleton
import proofs.«180235_j27212912788332_1_alg».proof.Proof.Gen.KernelIdeal.Launch
import proofs.«180235_j27212912788332_1_alg».proof.Proof.Gen.KernelIdeal.Points
import proofs.«180235_j27212912788332_1_alg».proof.Proof.Gen.KernelIdeal.Frame
import proofs.«180235_j27212912788332_1_alg».proof.Proof.Gen.ReferenceIdeal
import proofs.«180235_j27212912788332_1_alg».proof.Proof.Gen.ReferenceIdeal.Run
import proofs.«180235_j27212912788332_1_alg».proof.Proof.Gen.Pre_finite_inputs
import proofs.«180235_j27212912788332_1_alg».proof.Proof.KernelRun
import proofs.«180235_j27212912788332_1_alg».proof.Proof.Bridge
import proofs.«180235_j27212912788332_1_alg».proof.Proof.RefValue
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference's run, its result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- From memories agreeing on the arguments both runs end with the result at the network of the kernel's
    argument arrays: the kernel's by its boundary chain and the bridge, the reference's by its run term. -/
theorem algebraic : Cert.algebraic_KernelIdeal_ReferenceIdeal := by
  intro m ρ m' ρ' _ hagree
  refine ⟨fun c => Cert.KernelIdeal.Chain.result m c, ?_, ?_⟩
  · exact (θ_run Cert.KernelIdeal.defs _ _).mono
      (fun r h c => ⟨(h c).1.trans (Cert.KernelIdeal.Chain.W5_v42 m ρ c), (h c).2⟩)
      (Cert.KernelIdeal.RunValue.run (F := Ideal) m ρ)
  · refine (θ_run Cert.ReferenceIdeal.defs _ _).mono (fun r h c => ⟨(h c).1.trans ?_, (h c).2⟩)
      (Cert.ReferenceIdeal.Value.run (F := Ideal) m' ρ')
    obtain ⟨h0, h1, h2, h3, h4, h5, h6, h7, h8, h9⟩ := hagree c
    show Cert.ReferenceIdeal.Value.res_main_v64 (F := Ideal) m' c = Cert.KernelIdeal.Chain.result m c
    rw [Cert.ReferenceIdeal.RefValue.result_eq, Cert.KernelIdeal.Bridge.result_eq, h0, h1, h2, h3, h4, h5, h6, h7, h8, h9]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
